-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S100000x1 : Shape := ⟨2, ![100000, 1]⟩
abbrev S10000x128 : Shape := ⟨2, ![10000, 128]⟩
abbrev S10000x1 : Shape := ⟨2, ![10000, 1]⟩
abbrev S1600000x128 : Shape := ⟨2, ![1600000, 128]⟩

abbrev nBuf : Space → Nat
  | .hbm => 40
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S1x128, .f32⟩
  | .hbm, ⟨21, _⟩ => ⟨S100000x1, .f32⟩
  | .hbm, ⟨22, _⟩ => ⟨S100000x128, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x1, .f32⟩
  | .local _ .vmem, ⟨5, _⟩ => ⟨S10000x1, .f32⟩
  | .local _ .vmem, ⟨6, _⟩ => ⟨S10000x128, .f32⟩
  | .local _ .vmem, ⟨7, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S128_S1x128 : S128.ShapeCasts S1x128
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  scatter_S100000_S1600000x1_S1600000_n_0_0_1_wf : ScatterDims.WF S100000 S1600000x1 S1600000 [] [0] [0] 1
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x1.size a ≤ S100000x1.size a
  hwx0_3 : ∀ i : grid0.Coords, EltTy.bits .f32 = 32 ∨ (Rect.block (s := S100000x1) S10000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x128 : Shape := ⟨2, ![1, 128]⟩
abbrev S100000 : Shape := ⟨1, ![100000]⟩
abbrev S1x100000 : Shape := ⟨2, ![1, 100000]⟩
abbrev S2x100000 : Shape := ⟨2, ![2, 100000]⟩
abbrev S2x1700000 : Shape := ⟨2, ![2, 1700000]⟩
abbrev S1x1700000 : Shape := ⟨2, ![1, 1700000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩

abbrev nBuf : Space → Nat
  | .hbm => 62
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S1x128, .f32⟩
  | .hbm, ⟨6, _⟩ => ⟨S100000x128, .f32⟩
  | .hbm, ⟨7, _⟩ => ⟨S100000x128, .f32⟩
  | .hbm, ⟨8, _⟩ => ⟨S100000, .i32⟩
  | .hbm, ⟨9, _⟩ => ⟨S1x100000, .i32⟩
  | .hbm, ⟨10, _⟩ => ⟨S1x100000, .i32⟩
  | .hbm, ⟨11, _⟩ => ⟨S2x100000, .i32⟩
  | .hbm, ⟨12, _⟩ => ⟨S2x1700000, .i32⟩
  | .hbm, ⟨13, _⟩ => ⟨S1x1700000, .i32⟩
  | .hbm, ⟨14, _⟩ => ⟨S1700000, .i32⟩
  | .hbm, ⟨15, _⟩ => ⟨S1x1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S1700000, .f32⟩
  | .hbm, ⟨43, _⟩ => ⟨S_, .f32⟩
  | .hbm, ⟨44, _⟩ => ⟨S1700000, .f32⟩
  | .hbm, ⟨45, _⟩ => ⟨S1700000, .f32⟩
  | .hbm, ⟨46, _⟩ => ⟨S1700000x1, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x1600000_S2x100000_S2x1700000_d1 : Shape.Concatenates [S2x1600000, S2x100000] S2x1700000 1
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  dot_S100000x128_S128x128_S100000x128_1_1_0_0_n_n_wf : DotDims.WF S100000x128 S128x128 S100000x128 [1] [1] [0] [0] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.FiniteInputs.lean ====
/-
  Finite inputs are real numbers.

  The precondition says of each float input `a` that `|a| < +∞` holds at every entry (a comparison per entry, all of
  them and-ed together). Over the extended reals `|a| = max a (−a)`, and the only values with `max a (−a) = ⊤` are
  `⊤` and `⊥`: so every entry of every float input is the coercion of a real number. This is what later lets a
  product distribute over the sums the layer is made of.
-/
import proofs.«150654_j3977139716216_2_alg».proof.Proof.Gen.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.FiniteInputs

open Idealize.ShloMosaic Idealize.ShloMosaic.ValueIdx

/-- The word `0x7F800000` denotes `+∞`. -/
theorem ofBits_inf : Ideal.ofBits .f32 0x7F800000#32 = (⊤ : EReal) := by
  simp [Ideal.ofBits, Ideal.ieee]

/-- An extended real whose absolute value is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry of the printed comparison `|a| < +∞` being true makes that entry of `a` a real number. -/
theorem entry_real {s : Shape} (a : FVec Ideal s .f32)
    (hb : (⟨0, ![]⟩ : Shape).BroadcastsInDim s (![] : Fin 0 → Fin s.rank)) (i : s.Idx)
    (h : cmpf .olt (Host.absf a) (broadcastInDim s ![] hb (constant ⟨0, ![]⟩ .f32 0x7F800000#32)) i = 1#1) :
    ∃ r : ℝ, a i = (r : EReal) := by
  have hc : broadcastInDim s (![] : Fin 0 → Fin s.rank) hb (constant (F := Ideal) ⟨0, ![]⟩ .f32 0x7F800000#32) i = (⊤ : EReal) := by
    rw [broadcastInDim_apply _ hb _ i ix0 (fun d => d.elim0)]
    exact ofBits_inf
  have h' : Ideal.cmp .olt (max (a i) (-(a i))) (⊤ : EReal) = 1#1 := by
    rw [← hc]; exact h
  refine real_of_abs_lt_top (a i) ?_
  by_contra hn
  have : Ideal.cmp .olt (max (a i) (-(a i))) (⊤ : EReal) = 0#1 := by
    unfold Ideal.cmp
    simp only [hn, decide_false]
    rfl
  rw [this] at h'
  exact absurd h' (by decide)

instance : Subsingleton (⟨0, ![]⟩ : Shape).Idx := ⟨fun _ _ => funext fun d => d.elim0⟩

/-- Under the precondition every entry of the three float inputs is a real number. -/
theorem inputs_real [Cert.Pre_finite_inputs.Facts] (x : FVec Ideal Cert.Pre_finite_inputs.S100000x128 .f32)
    (ei : IVec Cert.Pre_finite_inputs.S2x1600000 32) (w : FVec Ideal Cert.Pre_finite_inputs.S128x128 .f32)
    (b : FVec Ideal Cert.Pre_finite_inputs.S128 .f32)
    (h : Cert.Pre_finite_inputs.fn (F := Ideal) x ei w b = fun _ => 1#1) :
    (∀ i, ∃ r : ℝ, x i = (r : EReal)) ∧ (∀ i, ∃ r : ℝ, w i = (r : EReal)) ∧ (∀ i, ∃ r : ℝ, b i = (r : EReal)) := by
  have h0 := congrFun h ix0
  dsimp only [Cert.Pre_finite_inputs.fn] at h0
  obtain ⟨h12, h3⟩ := IntOp.andi_eq_one.1 h0
  obtain ⟨h1, h2⟩ := IntOp.andi_eq_one.1 h12
  exact ⟨fun i => entry_real x _ i (Host.reduce_andi_all _ _ _ _ ix0 h1 i),
    fun i => entry_real w _ i (Host.reduce_andi_all _ _ _ _ ix0 h2 i),
    fun i => entry_real b _ i (Host.reduce_andi_all _ _ _ _ ix0 h3 i)⟩

end Cert.FiniteInputs

end
-- ==== Proof.KernelProgram.lean ====
/-
  The tiled program's result as one term of its arguments.

  Around its one tiled stage the program computes, on whole arrays: before it, the per-node scale
  `s = (count + 1)^(−1/2)` from the edges' target words (`scaleArr`), laid as a column, and the bias laid as a row;
  after it, with `h2` the stage's output, `s ⊙ (scatter-add(gather(h2, sources), targets) + h2)` (`afterStage`).
  This module reads those terms off the program's run: what the stage finds in its scale and bias operands
  (`stage_scale`, `stage_bias`), and the returned array as `afterStage` of the stage's output array
  (`result_eq`), whatever that array is.
-/
import proofs.«150654_j3977139716216_2_alg».proof.Proof.Gen.KernelIdeal.Frame
import Idealize.ShloMosaic.Lib.StableHlo.Run
import Idealize.ShloMosaic.PureOps.Ideal
import Idealize.ShloMosaic.Lib.Pipeline.Value

set_option maxRecDepth 16384

noncomputable section

namespace Cert.KernelIdeal.HostSide

open Cert.KernelIdeal Cert.KernelIdeal.Facts₀ Cert.KernelIdeal.Facts
open Idealize.ShloMosaic Idealize.ShloMosaic.TcCoe Idealize.SL.Sem Idealize.ShloMosaic.StableHlo

/-- The edges' words of one kind (targets: `off = ![0, 0]`; sources: `off = ![1, 0]`) as a flat array. -/
def wordsArr (off : Fin 2 → Nat) (hs : S2x1600000.Slices off S1x1600000) (ei : IVec S2x1600000 32) : IVec S1600000 32 :=
  shapeCast S1600000 (extractStridedSlice S1x1600000 off ei hs) shapeCasts_S1x1600000_S1600000

/-- The number of edges arriving at each node: ones accumulated into zeros at the target words. -/
def countArr (ei : IVec S2x1600000 32) : FVec Ideal S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 (wordsArr ![0, 0] slices_S2x1600000_S1x1600000_0_0 ei))
    (broadcastInDim S1600000 ![] bcast_S_S1600000 (constant S_ .f32 0x3F800000#32))

/-- The per-node scale `(count + 1)^(−1/2)`. -/
def scaleArr (ei : IVec S2x1600000 32) : FVec Ideal S100000 .f32 :=
  Host.powf (addf (countArr ei) (broadcastInDim S100000 ![] bcast_S_S100000 (constant S_ .f32 0x3F800000#32)))
    (broadcastInDim S100000 ![] bcast_S_S100000 (constant S_ .f32 0xBF000000#32))

/-- What follows the tiled stage, of the stage's output `h2`: gather its rows at the (normalised) source words,
    accumulate them at the target words into zeros, add `h2`, scale row `n` by `s n`. -/
def afterStage (ei : IVec S2x1600000 32) (h2 : FVec Ideal S100000x128 .f32) : FVec Ideal S100000x128 .f32 :=
  mulf
    (broadcastInDim S100000x128 ![0, 1] bcast_S100000x1_S100000x128_0_1
      (broadcastInDim S100000x1 ![0] bcast_S100000_S100000x1_0 (scaleArr ei)))
    (addf
      (Host.scatterAdd scatter_S100000x128_S1600000x1_S1600000x128_1_0_0_1
        (broadcastInDim S100000x128 ![] bcast_S_S100000x128 (constant S_ .f32 0x00000000#32))
        (broadcastInDim S1600000x1 ![0] bcast_S1600000_S1600000x1_0 (wordsArr ![0, 0] slices_S2x1600000_S1x1600000_0_0 ei))
        (Host.gather gather_S100000x128_S1600000x1_S1600000x128_1_0_n_n_0_1_1128 h2
          (broadcastInDim S1600000x1 ![0] bcast_S1600000_S1600000x1_0
            (select
              (cmpi .slt (wordsArr ![1, 0] slices_S2x1600000_S1x1600000_1_0 ei)
                (broadcastInDim S1600000 ![] bcast_S_S1600000 (constantI S_ 32 0#32)))
              (addi (wordsArr ![1, 0] slices_S2x1600000_S1x1600000_1_0 ei)
                (broadcastInDim S1600000 ![] bcast_S_S1600000 (constantI S_ 32 100000#32)))
              (wordsArr ![1, 0] slices_S2x1600000_S1x1600000_1_0 ei)))))
      h2)

variable (m : (ℓ : Loc nD τ sig) → Buf (Elt Ideal) ℓ) (c : Dev nD)

/-- The scale operand of the tiled stage: the per-node scale as a column. -/
theorem stage_scale : Gen.V m c main_v13
    = shapeCast S100000x1 (scaleArr (m ((c.tc : Thread nD τ).loc main_arg1))) shapeCasts_S100000_S100000x1 := by
  show StableHlo.after Gen.hostOps0 (fun b => m (c, b)) (Proc.devRef .tc main_v13) = _
  after_results
  rfl

/-- The bias operand of the tiled stage: the bias as a row. -/
theorem stage_bias : Gen.V m c main_v12
    = shapeCast S1x128 (m ((c.tc : Thread nD τ).loc main_arg3)) shapeCasts_S128_S1x128 := by
  show StableHlo.after Gen.hostOps0 (fun b => m (c, b)) (Proc.devRef .tc main_v12) = _
  after_results
  rfl

/-- The scale, as the lines after the stage read it. -/
theorem tail_scale : Gen.V0 m c (Proc.devRef .tc main_v11) = scaleArr (m ((c.tc : Thread nD τ).loc main_arg1)) := by
  show StableHlo.after Gen.hostOps0 (fun b => m (c, b)) (Proc.devRef .tc main_v11) = _
  after_results
  rfl

/-- The target words, as the lines after the stage read them. -/
theorem tail_rows : Gen.V0 m c (Proc.devRef .tc main_v1)
    = wordsArr ![0, 0] slices_S2x1600000_S1x1600000_0_0 (m ((c.tc : Thread nD τ).loc main_arg1)) := by
  show StableHlo.after Gen.hostOps0 (fun b => m (c, b)) (Proc.devRef .tc main_v1) = _
  after_results
  rfl

/-- The source words, as the lines after the stage read them. -/
theorem tail_cols : Gen.V0 m c (Proc.devRef .tc main_v3)
    = wordsArr ![1, 0] slices_S2x1600000_S1x1600000_1_0 (m ((c.tc : Thread nD τ).loc main_arg1)) := by
  show StableHlo.after Gen.hostOps0 (fun b => m (c, b)) (Proc.devRef .tc main_v3) = _
  after_results
  rfl

/-- The returned array is `afterStage` of the tiled stage's output array. -/
theorem result_eq : Pipeline.afterTail₀ cfgs (Gen.dats m) 0 (Gen.V0 m) [Gen.hostOps1] c main_v28
    = afterStage (m ((c.tc : Thread nD τ).loc main_arg1)) ((Gen.dats m 0 c).arrAt 4 cfg0.N) := by
  unfold Pipeline.afterTail₀
  have h14 : Pipeline.withArrays spec0 c (Gen.V0 m c) (fun w => (Gen.dats m 0 c).arrAt w cfg0.N) (Proc.devRef .tc main_v14)
      = (Gen.dats m 0 c).arrAt 4 cfg0.N := Pipeline.withArrays_arr spec0 Gen.launch0.win.arr_inj c (Gen.V0 m c) (fun w => (Gen.dats m 0 c).arrAt w cfg0.N) 4
  have h11 := Pipeline.withArrays_of_ne spec0 c (Gen.V0 m c) (fun w => (Gen.dats m 0 c).arrAt w cfg0.N) main_v11
    (by exact (by decide : ∀ w, Pipeline.arrRef spec0 w ≠ main_v11))
  have h1 := Pipeline.withArrays_of_ne spec0 c (Gen.V0 m c) (fun w => (Gen.dats m 0 c).arrAt w cfg0.N) main_v1
    (by exact (by decide : ∀ w, Pipeline.arrRef spec0 w ≠ main_v1))
  have h3 := Pipeline.withArrays_of_ne spec0 c (Gen.V0 m c) (fun w => (Gen.dats m 0 c).arrAt w cfg0.N) main_v3
    (by exact (by decide : ∀ w, Pipeline.arrRef spec0 w ≠ main_v3))
  rw [tail_scale] at h11
  rw [tail_rows] at h1
  rw [tail_cols] at h3
  generalize Pipeline.withArrays spec0 c (Gen.V0 m c) (fun w => (Gen.dats m 0 c).arrAt w cfg0.N) = Wv at h14 h11 h1 h3 ⊢
  simp only [List.flatten_cons, List.flatten_nil, List.append_nil]
  after_results_simp
  rw [h11, h1, h3, h14]
  rfl

end Cert.KernelIdeal.HostSide

end
-- ==== Proof.LibClamp.lean ====
/-
  A start index of a gather, read as a signed integer and clamped into the table's range [0, N - 1]
  (the slice has one element on that axis).
-/
import Idealize.ShloMosaic.Lib.ValueIdx

namespace Cert.IndexOps

/-- The signed value of z, clamped into [0, N - 1], as an index of an axis of extent N. -/
def clampIdx (N : Nat) (hN : 0 < N) {w : Nat} (z : BitVec w) : Fin N := ⟨min z.toInt.toNat (N - 1), by omega⟩

theorem clampIdx_val (N : Nat) (hN : 0 < N) {w : Nat} (z : BitVec w) :
    (clampIdx N hN z).val = min z.toInt.toNat (N - 1) := rfl

/-- Inside the range the clamp is the identity. -/
theorem clampIdx_of_lt (N : Nat) (hN : 0 < N) {w : Nat} (z : BitVec w) (h0 : 0 ≤ z.toInt) (h1 : z.toInt < N) :
    ((clampIdx N hN z).val : Int) = z.toInt := by
  rw [clampIdx_val]
  omega

end Cert.IndexOps
-- ==== Proof.LibGcnSpec.lean ====
/-
  One graph-convolution layer with symmetric degree normalisation, as a function of its inputs.

  A graph on `N` nodes is given by `E` edges; edge `e` has a target word `row e` and a source word `col e`
  (32-bit integers, any values). The layer first takes a linear image `h = x · Wᵀ + b` of the node features
  (`lin`), then sends along every edge, and along one extra loop at every node, the source's row of `h`
  weighted by `1 / √(deg(target) · deg(source))`, and adds up what arrives at each node (`layer`).

  * An index word used to WRITE (the target of an edge) is read signed and is not clamped: an edge whose target
    word is no node contributes nowhere. `tgt row n` is the set of edges arriving at node `n`.
  * An index word used to READ (the source of an edge) is first normalised (a negative word has `N` added,
    `wrapWord`), then read signed and clamped into `[0, N − 1]`: `nodeOf`.
  * `deg n` is the number of edges arriving at `n`, plus one for the loop: a real number `≥ 1`.

  The same layer can be computed "pre-scaled": with `s n = deg(n)^(−1/2)`, scale the rows of `h` by `s`, add up the
  scaled rows that arrive (and the node's own), and scale the total by `s` once more (`layerScaled`). The two
  agree (`layerScaled_eq_layer`) because `a^(−1/2) · b^(−1/2) = 1 / √(a · b)` for positive reals
  (`rpow_neg_half_mul`), and a product distributes over a finite sum of REAL numbers.
-/
import Idealize.ShloMosaic.PureOps.Ideal
import Idealize.ShloMosaic.Lib.ValueIdx
import proofs.«150654_j3977139716216_2_alg».proof.Proof.LibClamp

noncomputable section

open scoped BigOperators

namespace Cert.Gcn

open Idealize.ShloMosaic Idealize.ShloMosaic.ValueIdx Cert.IndexOps

variable {N E D K : Nat}

/-- The normalisation of an index word before a read: a negative word has the extent `n` added. -/
def wrapWord (n z : BitVec 32) : BitVec 32 := Scalar.select (IntOp.cmpi .slt z 0#32) (IntOp.addi z n) z

/-- The node an index word names when a row is READ through it: normalised, read signed, clamped into `[0, N − 1]`. -/
def nodeOf (N : Nat) (hN : 0 < N) (z : BitVec 32) : Fin N := clampIdx N hN (wrapWord (BitVec.ofNat 32 N) z)

/-- The edges arriving at node `n`: those whose target word, read signed, is `n`. -/
def tgt (row : Fin E → BitVec 32) (n : Fin N) : Finset (Fin E) :=
  Finset.univ.filter fun e : Fin E => (row e).toInt = (n.val : Int)

/-- The degree of node `n`: the number of edges arriving there, plus one for its loop. -/
def deg (row : Fin E → BitVec 32) (n : Fin N) : ℝ := ((tgt row n).card : ℝ) + 1

theorem deg_pos (row : Fin E → BitVec 32) (n : Fin N) : 0 < deg row n := by
  unfold deg; positivity

/-- The linear image of the node features: `h (n, j) = ∑ k, x (n, k) · w (j, k) + b j`. -/
def lin (xr : (⟨2, ![N, K]⟩ : Shape).Idx → ℝ) (wr : (⟨2, ![D, K]⟩ : Shape).Idx → ℝ) (br : (⟨1, ![D]⟩ : Shape).Idx → ℝ)
    (n : Fin N) (j : Fin D) : ℝ :=
  ∑ k : Fin K, xr (ix2 n k) * wr (ix2 j k) + br (ix1 j)

/-- The layer: every edge arriving at `n`, and the loop at `n`, brings its source's row of `h` weighted by
    `1 / √(deg(target) · deg(source))`. -/
def layer (hN : 0 < N) (row col : Fin E → BitVec 32) (h : Fin N → Fin D → ℝ) (n : Fin N) (j : Fin D) : ℝ :=
  (∑ e ∈ tgt row n, (1 / Real.sqrt (deg row n * deg row (nodeOf N hN (col e)))) * h (nodeOf N hN (col e)) j)
    + (1 / Real.sqrt (deg row n * deg row n)) * h n j

/-- What the tiled stage computes, as one array over the extended reals: the linear image `x · wᵀ + b` with row `n` scaled
    by entry `n` of the column `s2` (the bias a one-row array, the scale a one-column array). -/
def scaledLin (x : (⟨2, ![N, K]⟩ : Shape).Idx → EReal) (w : (⟨2, ![D, K]⟩ : Shape).Idx → EReal)
    (b2 : (⟨2, ![1, D]⟩ : Shape).Idx → EReal) (s2 : (⟨2, ![N, 1]⟩ : Shape).Idx → EReal) :
    (⟨2, ![N, D]⟩ : Shape).Idx → EReal :=
  fun y => (∑ k : Fin K, x (ix2 (y 0) k) * w (ix2 (y 1) k) + b2 (ix2 (0 : Fin 1) (y 1))) * s2 (ix2 (y 0) (0 : Fin 1))

/-- The per-node scale `deg(n)^(−1/2)`. -/
def scale (row : Fin E → BitVec 32) (n : Fin N) : ℝ := Real.rpow (deg row n) (-(1 / 2))

/-- The layer computed pre-scaled: rows of `h` scaled by `scale`, those arriving at `n` and `n`'s own added up, the
    total scaled by `scale n`. -/
def layerScaled (hN : 0 < N) (row col : Fin E → BitVec 32) (h : Fin N → Fin D → ℝ) (n : Fin N) (j : Fin D) : ℝ :=
  scale row n * ((∑ e ∈ tgt row n, h (nodeOf N hN (col e)) j * scale row (nodeOf N hN (col e))) + h n j * scale row n)

/-- For positive reals, `a^(−1/2) · b^(−1/2) = 1 / √(a · b)`. -/
theorem rpow_neg_half_mul {a b : ℝ} (ha : 0 < a) (hb : 0 < b) :
    Real.rpow a (-(1 / 2)) * Real.rpow b (-(1 / 2)) = 1 / Real.sqrt (a * b) := by
  show a ^ (-(1 / 2) : ℝ) * b ^ (-(1 / 2) : ℝ) = _
  rw [Real.rpow_neg ha.le, Real.rpow_neg hb.le, ← Real.sqrt_eq_rpow, ← Real.sqrt_eq_rpow, Real.sqrt_mul ha.le, one_div,
    mul_inv]

/-- The pre-scaled computation is the layer. -/
theorem layerScaled_eq_layer (hN : 0 < N) (row col : Fin E → BitVec 32) (h : Fin N → Fin D → ℝ) (n : Fin N) (j : Fin D) :
    layerScaled hN row col h n j = layer hN row col h n j := by
  unfold layerScaled layer scale
  rw [mul_add, Finset.mul_sum]
  congr 1
  · refine Finset.sum_congr rfl fun e _ => ?_
    rw [← rpow_neg_half_mul (deg_pos row n) (deg_pos row (nodeOf N hN (col e)))]
    ring
  · rw [← rpow_neg_half_mul (deg_pos row n) (deg_pos row n)]
    ring

/-! ## The float constants the programs spell -/

/-- The word `0x3F800000` denotes `1`. -/
theorem ofBits_one : Ideal.ofBits .f32 0x3F800000#32 = ((1 : ℝ) : EReal) := by
  simp [Ideal.ofBits, Ideal.ieee, -EReal.coe_mul]; norm_num

/-- The word `0xBF000000` denotes `−1/2`. -/
theorem ofBits_neg_half : Ideal.ofBits .f32 0xBF000000#32 = ((-(1 / 2) : ℝ) : EReal) := by
  simp [Ideal.ofBits, Ideal.ieee, -EReal.coe_mul]; norm_num

end Cert.Gcn

end
-- ==== Proof.LibRowOps.lean ====
/-
  Rows gathered and rows scattered, read at an index.

  A graph propagation step `h ↦ segment_sum (h[row] * norm[:, None], col)` lowers to one `stablehlo.gather` that
  copies whole rows of an `[N, F]` array — row `e` of the `[E, F]` result is the operand's row named by start index
  `e`, read signed and clamped into `[0, N − 1]` — and one accumulating `stablehlo.scatter` that adds row `e` of the
  `[E, F]` updates onto the operand's row named by scatter index `e`, read signed and NOT clamped (an update whose
  row is outside `[0, N)` is dropped). This module states those dimension numbers once for every `N`, `E`, `F`
  (`rowGather`, `rowScatter`) and reads both operations at an index `(n, f)`:

  * `rowGather_operandIdx`: result element `(e, f)` reads the operand at `(clampRow idx e, f)`;
  * `rowScatter_resultIdx`: update element `(e, f)` lands on `(n, f')` exactly when start index `e` reads `n` and
    `f = f'`;
  * `scatterAdd_rows_apply`: at the ideal values the accumulating scatter at `(n, f)` is the operand there plus the
    sum, over the updates' rows `e` whose start index reads `n`, of the update at `(e, f)`.

  The column `f` passes through both untouched and the rows chosen depend on the index arrays alone: that is what
  lets a propagation step commute with a product by a matrix on the feature axis.
-/
import Idealize.ShloMosaic.PureOps.Ideal
import Idealize.ShloMosaic.Lib.ValueIdx

noncomputable section

open scoped BigOperators

namespace Cert.Lib.RowOps

open Idealize.ShloMosaic Idealize.ShloMosaic.ValueIdx

variable {N E F : Nat}

/-- The dimension numbers of `x[idx]` for an operand `[N, F]` and start indices `[E, 1]`: whole rows, result `[E, F]`. -/
abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x.at[idx].add(u)` for an operand `[N, F]`, scatter indices `[E, 1]`, updates `[E, F]`. -/
abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The operand row start index `e` names: the index word read signed, clamped into `[0, N − 1]`. -/
def clampRow (hN : 0 < N) {w : Nat} (idx : IVec ⟨2, ![E, 1]⟩ w) (e : Fin E) : Fin N :=
  ⟨min (idx (ix2 e 0)).toInt.toNat (N - 1), by omega⟩

/-- A row gather's result element `(e, f)` reads the operand at `(clampRow idx e, f)`. -/
theorem rowGather_operandIdx (hN : 0 < N)
    (wf : GatherDims.WF ⟨2, ![N, F]⟩ ⟨2, ![E, 1]⟩ ⟨2, ![E, F]⟩ [1] [0] [] [0] [] 1 ![1, F])
    {w : Nat} (idx : IVec ⟨2, ![E, 1]⟩ w) (e : Fin E) (f : Fin F) :
    (rowGather N E F wf).operandIdx (ix2 e f) idx = ix2 (clampRow hN idx e) f := by
  funext a
  refine Fin.ext ?_
  match a with
  | ⟨0, _⟩ =>
    show (rowGather N E F wf).start (ix2 e f) idx 0 + (rowGather N E F wf).batchCoord (ix2 e f) 0
        + (rowGather N E F wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
        + (rowGather N E F wf).offCoord (ix2 e f) 1 = f.val
    have hs : (rowGather N E F wf).start (ix2 e f) idx 1 = 0 := by
      unfold GatherDims.start
      rw [dif_neg (show (1 : Fin 2) ∉ ([0] : List (Fin 2)) from by decide)]
    have ho : (rowGather N E F wf).offCoord (ix2 e f) 1 = f.val := by
      unfold GatherDims.offCoord
      rw [dif_pos ((GatherDims.mem_sKept _ _).mpr ⟨show (1 : Fin 2) ∉ ([0] : List (Fin 2)) from by decide, List.not_mem_nil⟩)]
      rfl
    rw [GatherDims.batchCoord_eq_zero _ _ _ List.not_mem_nil, hs, ho]
    omega

/-- A row scatter's update element `(e, f)` lands on `(n, f')` exactly when scatter index `e` reads `n` and the columns agree. -/
theorem rowScatter_resultIdx
    (wf : ScatterDims.WF ⟨2, ![N, F]⟩ ⟨2, ![E, 1]⟩ ⟨2, ![E, F]⟩ [1] [0] [0] 1)
    {w : Nat} (idx : IVec ⟨2, ![E, 1]⟩ w) (e : Fin E) (f : Fin F) (n : Fin N) (f' : Fin F) :
    (rowScatter N E F wf).resultIdx? (ix2 e f) idx = some (ix2 n f')
      ↔ ((idx (ix2 e 0)).toInt = (n.val : Int) ∧ f = f') := by
  have hs0 : (rowScatter N E F wf).start (ix2 e f) idx 0 = (idx (ix2 e 0)).toInt := by
    unfold ScatterDims.start
    rw [dif_pos (show (0 : Fin 2) ∈ (rowScatter N E F wf).scatterDimsToOperandDims from List.mem_singleton.mpr rfl)]
    refine congrArg (fun k => (idx k).toInt) ?_
    funext b; refine Fin.ext ?_
    match b with
    | ⟨0, _⟩ => rfl
    | ⟨1, _⟩ => rfl
  have hs1 : (rowScatter N E F wf).start (ix2 e f) idx 1 = 0 := by
    unfold ScatterDims.start
    rw [dif_neg (show (1 : Fin 2) ∉ ([0] : List (Fin 2)) from by decide)]
  have hw0 : (rowScatter N E F wf).window (ix2 e f) 0 = 0 := by
    have hk : (0 : Fin 2) ∉ (rowScatter N E F wf).sKept :=
      (show (0 : Fin 2) ∉ (List.finRange 2).filter (· ∉ ([0] : List (Fin 2))) from by decide)
    unfold ScatterDims.window
    rw [dif_neg hk]
  have hw1 : (rowScatter N E F wf).window (ix2 e f) 1 = f.val := by
    have hk : (1 : Fin 2) ∈ (rowScatter N E F wf).sKept :=
      (show (1 : Fin 2) ∈ (List.finRange 2).filter (· ∉ ([0] : List (Fin 2))) from by decide)
    unfold ScatterDims.window
    rw [dif_pos hk]
    rfl
  unfold ScatterDims.resultIdx?
  split
  · rename_i h
    rw [Option.some.injEq]
    constructor
    · intro heq
      have h0 := congrArg (fun i => (i 0).val) heq
      have h1 := congrArg (fun i => (i 1).val) heq
      have g0 := (h 0).1
      simp only [hs0, hw0] at h0 g0
      simp only [hs1, hw1] at h1
      refine ⟨?_, Fin.ext ?_⟩
      · show (idx (ix2 e 0)).toInt = (n.val : Int)
        have : ((idx (ix2 e 0)).toInt + ((0 : Nat) : Int)).toNat = n.val := h0
        omega
      · have : ((0 : Int) + (f.val : Int)).toNat = f'.val := h1
        omega
    · rintro ⟨hi, rfl⟩
      funext a
      refine Fin.ext ?_
      match a with
      | ⟨0, _⟩ =>
        show ((rowScatter N E F wf).start (ix2 e f) idx 0 + ((rowScatter N E F wf).window (ix2 e f) 0 : Int)).toNat = n.val
        rw [hs0, hw0, hi]; omega
      | ⟨1, _⟩ =>
        show ((rowScatter N E F wf).start (ix2 e f) idx 1 + ((rowScatter N E F wf).window (ix2 e f) 1 : Int)).toNat = f.val
        rw [hs1, hw1]; omega
  · rename_i h
    constructor
    · intro heq; exact absurd heq (by simp)
    · rintro ⟨hi, rfl⟩
      exfalso
      apply h
      intro a
      match a with
      | ⟨0, _⟩ =>
        show 0 ≤ (rowScatter N E F wf).start (ix2 e f) idx 0 + ((rowScatter N E F wf).window (ix2 e f) 0 : Int)
          ∧ (rowScatter N E F wf).start (ix2 e f) idx 0 + ((rowScatter N E F wf).window (ix2 e f) 0 : Int) < (N : Int)
        rw [hs0, hw0, hi]
        have := n.isLt
        omega
      | ⟨1, _⟩ =>
        show 0 ≤ (rowScatter N E F wf).start (ix2 e f) idx 1 + ((rowScatter N E F wf).window (ix2 e f) 1 : Int)
          ∧ (rowScatter N E F wf).start (ix2 e f) idx 1 + ((rowScatter N E F wf).window (ix2 e f) 1 : Int) < (F : Int)
        rw [hs1, hw1]
        have := f.isLt
        omega

/-- At the ideal values an accumulating row scatter read at `(n, f)`: the operand there plus the sum, over the rows `e`
    of the updates whose scatter index reads `n`, of the update at `(e, f)`. -/
theorem scatterAdd_rows_apply
    (wf : ScatterDims.WF ⟨2, ![N, F]⟩ ⟨2, ![E, 1]⟩ ⟨2, ![E, F]⟩ [1] [0] [0] 1)
    (x : (⟨2, ![N, F]⟩ : Shape).Idx → EReal) {w : Nat} (idx : IVec ⟨2, ![E, 1]⟩ w)
    (upd : (⟨2, ![E, F]⟩ : Shape).Idx → EReal) (n : Fin N) (f : Fin F) :
    Ideal.hostScatterAdd (rowScatter N E F wf) x idx upd (ix2 n f)
      = x (ix2 n f) + ∑ e ∈ Finset.univ.filter (fun e : Fin E => (idx (ix2 e 0)).toInt = (n.val : Int)), upd (ix2 e f) := by
  unfold Ideal.hostScatterAdd
  refine congrArg (x (ix2 n f) + ·) ?_
  rw [Finset.sum_filter, sum_idx2, Finset.sum_filter]
  refine Finset.sum_congr rfl fun e _ => ?_
  simp only [rowScatter_resultIdx]
  by_cases hP : (idx (ix2 e 0)).toInt = (n.val : Int)
  · simp only [hP, true_and, if_true, Finset.sum_ite_eq', Finset.mem_univ]
  · simp only [hP, false_and, if_false, Finset.sum_const_zero]

end Cert.Lib.RowOps

end
-- ==== Proof.LibRealSum.lean ====
/-
  Real entries among the extended reals, and the one law that lets a graph propagation step commute with a product by a matrix.

  At the ideal values a float is an extended real, and on the extended reals a product does not distribute over a
  sum in general (`⊤ + ⊥`). Where every entry is a real it does: this module names that condition (`IsReal`), shows
  the operations a degree normalisation is made of keep it (a finite sum, a product, a maximum, a choice between two
  reals, the reciprocal square root of a positive real), pushes the coercion `ℝ → EReal` through finite sums
  (`coe_sum`), and proves the law (`step_comm`): for real coefficients `ν e`, real rows `a e k` and a real
  column `w k`,

      0 + ∑ e ∈ S, (∑ k, a e k · w k) · ν e  =  ∑ k, (∑ e ∈ S, a e k · ν e) · w k

  — adding up weighted rows and then contracting with `w` is contracting each row with `w` and then adding up.
-/
import Idealize.ShloMosaic.PureOps.Ideal
import Idealize.ShloMosaic.PureOps.Ideal.Laws

noncomputable section

open scoped BigOperators

namespace Cert.Lib.RealSum

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One propagation step on real entries stays real: zero plus a sum of products of reals is the real sum of products. -/
theorem step_real {E : Type*} (S : Finset E) (a ν : E → ℝ) :
    (0 : EReal) + ∑ e ∈ S, (a e : EReal) * (ν e : EReal) = ((∑ e ∈ S, a e * ν e : ℝ) : EReal) := by
  rw [zero_add, coe_sum]
  simp only [EReal.coe_mul]

/-- A propagation step commutes with a contraction of the feature axis: weighting and adding up rows that were
    already contracted with `w` gives the contraction with `w` of the weighted sum of the rows. -/
theorem step_comm {E K : Type*} [Fintype K] (S : Finset E) (a : E → K → ℝ) (ν : E → ℝ) (w : K → ℝ) :
    (0 : EReal) + ∑ e ∈ S, ((∑ k, a e k * w k : ℝ) : EReal) * (ν e : EReal)
      = ((∑ k, (∑ e ∈ S, a e k * ν e) * w k : ℝ) : EReal) := by
  rw [step_real]
  refine congrArg _ ?_
  simp only [Finset.sum_mul]
  rw [Finset.sum_comm]
  refine Finset.sum_congr rfl fun k _ => Finset.sum_congr rfl fun e _ => by ring

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The ideal reciprocal square root of a positive real is a real. -/
theorem IsReal.rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A real that is at least a positive real has a real ideal reciprocal square root. -/
theorem IsReal.rsqrt_max {x c : EReal} (hx : IsReal x) {r : ℝ} (hc : c = (r : EReal)) (hr : 0 < r) :
    IsReal (Ideal.rsqrt (Max.max x c)) := by
  obtain ⟨a, rfl⟩ := hx
  subst hc
  have : Max.max (a : EReal) (r : EReal) = ((Max.max a r : ℝ) : EReal) := (EReal.coe_strictMono.monotone.map_max (a := a) (b := r)).symm
  rw [this]
  exact IsReal.rsqrt_of_pos (lt_of_lt_of_le hr (le_max_right a r))

/-! ## The host operations a normalisation is made of, on real entries

Stated over arbitrary shapes and dimension numbers, so that at a program's literal shapes they apply to the printed
operation as it stands. -/

/-- The f32 zero word is the real `0`. -/
theorem IsReal.ofBits_zero : IsReal (FloatOps.ofBits (F := Ideal) .f32 0x00000000#32) := by
  rw [Ideal.ofBits_def, Ideal.ofBits_zero_f32]
  exact IsReal.zero

/-- A float product of reals is real. -/
theorem IsReal.fmul {x y : EReal} (hx : IsReal x) (hy : IsReal y) :
    IsReal (FloatOps.mulf (F := Ideal) (φ := .f32) x y) := hx.mul hy

/-- A choice between two reals is real, whichever the condition picks. -/
theorem IsReal.select (c : BitVec 1) {a b : EReal} (ha : IsReal a) (hb : IsReal b) : IsReal (Scalar.select c a b) := by
  unfold Scalar.select
  split <;> assumption

/-- The host's reciprocal square root of the maximum of a real and a positive real is real. -/
theorem IsReal.host_rsqrt_max {x c : EReal} (hx : IsReal x) {r : ℝ} (hc : c = (r : EReal)) (hr : 0 < r) :
    IsReal (FloatOps.hostUnary (F := Ideal) (φ := .f32) .rsqrt (FloatOps.maximumf (F := Ideal) (φ := .f32) x c)) :=
  IsReal.rsqrt_max hx hc hr

/-- An accumulating scatter of real updates into a real operand is real at every index: each element is the operand's
    plus a finite sum of updates. -/
theorem IsReal.host_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gathered entry of a real array is real, wherever the index points. -/
theorem IsReal.host_gather {s si t : Shape} (d : GatherDims s si t) {w : Nat} (x : s.Idx → EReal) (idx : IVec si w)
    (hx : ∀ i, IsReal (x i)) (j : t.Idx) : IsReal (Host.gather d x idx j) := hx _

end Cert.Lib.RealSum

end
-- ==== Proof.LibIndexOps.lean ====
/-
  Index-dependent array operations read at one index, from the definitions of the array library.

  A gather whose start indices are run-time integers reads the operand at the start index, taken as a signed
  integer and clamped into the operand's range on each indexed axis, the other coordinates passing through:
  a flat table (gather_flat_apply), the rows and the columns of a matrix (gather_rows_apply, gather_cols_apply),
  and a two-dimensional tile of a four-dimensional table addressed by a pair of indices, in either layout
  (gather_tile_lead_apply, gather_tile_trail_apply).
  An accumulating scatter into a flat array adds to each element the updates whose (signed, unclamped) index
  is that element's position (scatter_flat_resultIdx, scatterAdd_flat_apply).
  Two arrays laid end to end read the first below its extent and the second past it
  (concatenate_flat_apply, concatenate_cols_apply).
-/
import proofs.«150654_j3977139716216_2_alg».proof.Proof.LibClamp
import Idealize.ShloMosaic.Lib.Pipeline.Value

noncomputable section

open scoped BigOperators

namespace Cert.IndexOps

open Idealize.ShloMosaic Idealize.ShloMosaic.ValueIdx

section Gather
variable {α : Type}

/-- A flat table of extent N gathered at E start indices: element e is the table at the e-th start index, read
    signed and clamped into [0, N - 1]. -/
theorem gather_flat_apply {N E w : Nat} (hN : 0 < N)
    (d : GatherDims ⟨1, ![N]⟩ ⟨2, ![E, 1]⟩ ⟨1, ![E]⟩)
    (hod : d.offsetDims = []) (hcd : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![N]⟩ : Shape).Idx → α) (idx : IVec ⟨2, ![E, 1]⟩ w) (e : Fin E) :
    Host.gather d x idx (ix1 e) = x (ix1 (clampIdx N hN (idx (ix2 e 0)))) := by
  obtain ⟨od, cd, ob, sb, sm, iv, ss, wf⟩ := d
  simp only at hod hcd hob hsb hsm hiv hss
  subst hod hcd hob hsb hsm hiv hss
  unfold Host.gather
  congr 1
  funext a
  obtain rfl : a = 0 := Subsingleton.elim _ _
  refine Fin.ext ?_
  show GatherDims.start _ (ix1 e) idx 0 + GatherDims.batchCoord _ (ix1 e) 0 + GatherDims.offCoord _ (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  refine congrArg (fun i => min (idx i).toInt.toNat (N - 1)) (?_ : _ = ix2 e 0)
  funext b; refine Fin.ext ?_
  match b with
  | ⟨0, _⟩ => rfl
  | ⟨1, _⟩ => rfl

/-- Rows of an N by K matrix gathered at E start indices: row e of the result is the row at the e-th start index,
    read signed and clamped into [0, N - 1]. -/
theorem gather_rows_apply {N K E w : Nat} (hN : 0 < N)
    (d : GatherDims ⟨2, ![N, K]⟩ ⟨2, ![E, 1]⟩ ⟨2, ![E, K]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, K])
    (x : (⟨2, ![N, K]⟩ : Shape).Idx → α) (idx : IVec ⟨2, ![E, 1]⟩ w) (e : Fin E) (k : Fin K) :
    Host.gather d x idx (ix2 e k) = x (ix2 (clampIdx N hN (idx (ix2 e 0))) k) := by
  obtain ⟨od, cd, ob, sb, sm, iv, ss, wf⟩ := d
  simp only at hod hcd hob hsb hsm hiv hss
  subst hod hcd hob hsb hsm hiv hss
  unfold Host.gather
  congr 1
  funext a
  refine Fin.ext ?_
  match a with
  | ⟨0, _⟩ =>
    -- the row axis: collapsed, addressed by the start index
    show GatherDims.start _ (ix2 e k) idx 0 + GatherDims.batchCoord _ (ix2 e k) 0 + GatherDims.offCoord _ (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun i => min (idx i).toInt.toNat (N - 1)) (?_ : _ = ix2 e 0)
    funext b; refine Fin.ext ?_
    match b with
    | ⟨0, _⟩ => rfl
    | ⟨1, _⟩ => rfl
  | ⟨1, _⟩ =>
    -- the column axis: an offset axis, its coordinate passes through
    show 0 + GatherDims.offCoord _ (ix2 e k) 1 = k.val
    rw [Nat.zero_add]
    rfl

/-- Columns of a K by N matrix gathered at E start indices: column e of the result is the column at the e-th
    start index, read signed and clamped into [0, N - 1]. -/
theorem gather_cols_apply {N K E w : Nat} (hN : 0 < N)
    (d : GatherDims ⟨2, ![K, N]⟩ ⟨2, ![E, 1]⟩ ⟨2, ![K, E]⟩)
    (hod : d.offsetDims = [0]) (hcd : d.collapsedSliceDims = [1]) (hob : d.operandBatchingDims = [])
    (hsb : d.startIndicesBatchingDims = []) (hsm : d.startIndexMap = [1]) (hiv : d.indexVectorDim = 1)
    (hss : d.sliceSizes = ![K, 1])
    (x : (⟨2, ![K, N]⟩ : Shape).Idx → α) (idx : IVec ⟨2, ![E, 1]⟩ w) (k : Fin K) (e : Fin E) :
    Host.gather d x idx (ix2 k e) = x (ix2 k (clampIdx N hN (idx (ix2 e 0)))) := by
  obtain ⟨od, cd, ob, sb, sm, iv, ss, wf⟩ := d
  simp only at hod hcd hob hsb hsm hiv hss
  subst hod hcd hob hsb hsm hiv hss
  unfold Host.gather
  congr 1
  funext a
  refine Fin.ext ?_
  match a with
  | ⟨0, _⟩ =>
    -- the row axis: an offset axis, its coordinate passes through
    show 0 + GatherDims.offCoord _ (ix2 k e) 0 = k.val
    rw [Nat.zero_add]
    rfl
  | ⟨1, _⟩ =>
    -- the column axis: collapsed, addressed by the start index
    show GatherDims.start _ (ix2 k e) idx 1 + GatherDims.batchCoord _ (ix2 k e) 1 + GatherDims.offCoord _ (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun i => min (idx i).toInt.toNat (N - 1)) (?_ : _ = ix2 e 0)
    funext b; refine Fin.ext ?_
    match b with
    | ⟨0, _⟩ => rfl
    | ⟨1, _⟩ => rfl

/-- A P by Q tile of an A by B by P by Q table gathered at E pairs of start indices: tile e of the result is the
    tile at the e-th pair, each component read signed and clamped into its axis's range. -/
theorem gather_tile_lead_apply {A B P Q E w : Nat} (hA : 0 < A) (hB : 0 < B)
    (d : GatherDims ⟨4, ![A, B, P, Q]⟩ ⟨2, ![E, 2]⟩ ⟨3, ![E, P, Q]⟩)
    (hod : d.offsetDims = [1, 2]) (hcd : d.collapsedSliceDims = [0, 1]) (hob : d.operandBatchingDims = [])
    (hsb : d.startIndicesBatchingDims = []) (hsm : d.startIndexMap = [0, 1]) (hiv : d.indexVectorDim = 1)
    (hss : d.sliceSizes = ![1, 1, P, Q])
    (x : (⟨4, ![A, B, P, Q]⟩ : Shape).Idx → α) (idx : IVec ⟨2, ![E, 2]⟩ w) (e : Fin E) (p : Fin P) (q : Fin Q) :
    Host.gather d x idx (ix3 e p q)
      = x (ix4 (clampIdx A hA (idx (ix2 e 0))) (clampIdx B hB (idx (ix2 e 1))) p q) := by
  obtain ⟨od, cd, ob, sb, sm, iv, ss, wf⟩ := d
  simp only at hod hcd hob hsb hsm hiv hss
  subst hod hcd hob hsb hsm hiv hss
  unfold Host.gather
  congr 1
  funext a
  refine Fin.ext ?_
  match a with
  | ⟨0, _⟩ =>
    -- the first table axis: collapsed, addressed by the first component of the start index
    show GatherDims.start _ (ix3 e p q) idx 0 + GatherDims.batchCoord _ (ix3 e p q) 0 + GatherDims.offCoord _ (ix3 e p q) 0 = _
    rw [GatherDims.batchCoord_eq_zero _ _ _ List.not_mem_nil,
      GatherDims.offCoord_eq_zero _ _ _ (fun h => ((GatherDims.mem_sKept _ _).mp h).1 (List.mem_cons.mpr (Or.inl rfl)))]
    simp only [Nat.add_zero]
    unfold GatherDims.start
    rw [dif_pos (List.mem_cons.mpr (Or.inl rfl))]
    refine congrArg (fun i => min (idx i).toInt.toNat (A - 1)) (?_ : _ = ix2 e 0)
    funext b; refine Fin.ext ?_
    match b with
    | ⟨0, _⟩ => rfl
    | ⟨1, _⟩ => rfl
  | ⟨1, _⟩ =>
    -- the second table axis: collapsed, addressed by the second component
    show GatherDims.start _ (ix3 e p q) idx 1 + GatherDims.batchCoord _ (ix3 e p q) 1 + GatherDims.offCoord _ (ix3 e p q) 1 = _
    rw [GatherDims.batchCoord_eq_zero _ _ _ List.not_mem_nil,
      GatherDims.offCoord_eq_zero _ _ _ (fun h => ((GatherDims.mem_sKept _ _).mp h).1 (List.mem_cons.mpr (Or.inr (List.mem_singleton.mpr rfl))))]
    simp only [Nat.add_zero]
    unfold GatherDims.start
    rw [dif_pos (List.mem_cons.mpr (Or.inr (List.mem_singleton.mpr rfl)))]
    refine congrArg (fun i => min (idx i).toInt.toNat (B - 1)) (?_ : _ = ix2 e 1)
    funext b; refine Fin.ext ?_
    match b with
    | ⟨0, _⟩ => rfl
    | ⟨1, _⟩ => rfl
  | ⟨2, _⟩ =>
    -- the tile's row axis: an offset axis, its coordinate passes through
    show 0 + GatherDims.offCoord _ (ix3 e p q) 2 = p.val
    rw [Nat.zero_add]
    rfl
  | ⟨3, _⟩ =>
    -- the tile's column axis: an offset axis, its coordinate passes through
    show 0 + GatherDims.offCoord _ (ix3 e p q) 3 = q.val
    rw [Nat.zero_add]
    rfl

/-- The same table laid P by Q by A by B: tile e of the result, on the last axis, is the tile at the e-th pair of
    start indices, each component read signed and clamped into its axis's range. -/
theorem gather_tile_trail_apply {A B P Q E w : Nat} (hA : 0 < A) (hB : 0 < B)
    (d : GatherDims ⟨4, ![P, Q, A, B]⟩ ⟨2, ![E, 2]⟩ ⟨3, ![P, Q, E]⟩)
    (hod : d.offsetDims = [0, 1]) (hcd : d.collapsedSliceDims = [2, 3]) (hob : d.operandBatchingDims = [])
    (hsb : d.startIndicesBatchingDims = []) (hsm : d.startIndexMap = [2, 3]) (hiv : d.indexVectorDim = 1)
    (hss : d.sliceSizes = ![P, Q, 1, 1])
    (x : (⟨4, ![P, Q, A, B]⟩ : Shape).Idx → α) (idx : IVec ⟨2, ![E, 2]⟩ w) (p : Fin P) (q : Fin Q) (e : Fin E) :
    Host.gather d x idx (ix3 p q e)
      = x (ix4 p q (clampIdx A hA (idx (ix2 e 0))) (clampIdx B hB (idx (ix2 e 1)))) := by
  obtain ⟨od, cd, ob, sb, sm, iv, ss, wf⟩ := d
  simp only at hod hcd hob hsb hsm hiv hss
  subst hod hcd hob hsb hsm hiv hss
  unfold Host.gather
  congr 1
  funext a
  refine Fin.ext ?_
  match a with
  | ⟨0, _⟩ =>
    -- the tile's row axis: an offset axis, its coordinate passes through
    show 0 + GatherDims.offCoord _ (ix3 p q e) 0 = p.val
    rw [Nat.zero_add]
    rfl
  | ⟨1, _⟩ =>
    -- the tile's column axis: an offset axis, its coordinate passes through
    show 0 + GatherDims.offCoord _ (ix3 p q e) 1 = q.val
    rw [Nat.zero_add]
    rfl
  | ⟨2, _⟩ =>
    -- the first table axis: collapsed, addressed by the first component of the start index
    show GatherDims.start _ (ix3 p q e) idx 2 + GatherDims.batchCoord _ (ix3 p q e) 2 + GatherDims.offCoord _ (ix3 p q e) 2 = _
    rw [GatherDims.batchCoord_eq_zero _ _ _ List.not_mem_nil,
      GatherDims.offCoord_eq_zero _ _ _ (fun h => ((GatherDims.mem_sKept _ _).mp h).1 (List.mem_cons.mpr (Or.inl rfl)))]
    simp only [Nat.add_zero]
    unfold GatherDims.start
    rw [dif_pos (List.mem_cons.mpr (Or.inl rfl))]
    refine congrArg (fun i => min (idx i).toInt.toNat (A - 1)) (?_ : _ = ix2 e 0)
    funext b; refine Fin.ext ?_
    match b with
    | ⟨0, _⟩ => rfl
    | ⟨1, _⟩ => rfl
  | ⟨3, _⟩ =>
    -- the second table axis: collapsed, addressed by the second component
    show GatherDims.start _ (ix3 p q e) idx 3 + GatherDims.batchCoord _ (ix3 p q e) 3 + GatherDims.offCoord _ (ix3 p q e) 3 = _
    rw [GatherDims.batchCoord_eq_zero _ _ _ List.not_mem_nil,
      GatherDims.offCoord_eq_zero _ _ _ (fun h => ((GatherDims.mem_sKept _ _).mp h).1 (List.mem_cons.mpr (Or.inr (List.mem_singleton.mpr rfl))))]
    simp only [Nat.add_zero]
    unfold GatherDims.start
    rw [dif_pos (List.mem_cons.mpr (Or.inr (List.mem_singleton.mpr rfl)))]
    refine congrArg (fun i => min (idx i).toInt.toNat (B - 1)) (?_ : _ = ix2 e 1)
    funext b; refine Fin.ext ?_
    match b with
    | ⟨0, _⟩ => rfl
    | ⟨1, _⟩ => rfl

end Gather

section Scatter

/-- Update e of a scatter into a flat array of extent N lands on position a exactly when its index, read signed,
    is a (no clamping: an index outside [0, N - 1] lands nowhere). -/
theorem scatter_flat_resultIdx {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (idx : IVec ⟨2, ![E, 1]⟩ w) (e : Fin E) (a : Fin N) :
    d.resultIdx? (ix1 e) idx = some (ix1 a) ↔ (idx (ix2 e 0)).toInt = (a.val : Int) := by
  obtain ⟨uw, iw, sd, iv, wf⟩ := d
  simp only at huw hiw hsd hiv
  subst huw hiw hsd hiv
  -- on the one operand axis the start is the e-th index read signed, and the window coordinate is 0
  have key : ∀ a' : Fin (⟨1, ![N]⟩ : Shape).rank,
      ScatterDims.start (⟨[], [0], [0], 1, wf⟩ : ScatterDims ⟨1, ![N]⟩ ⟨2, ![E, 1]⟩ ⟨1, ![E]⟩) (ix1 e) idx a'
        + (ScatterDims.window (⟨[], [0], [0], 1, wf⟩ : ScatterDims ⟨1, ![N]⟩ ⟨2, ![E, 1]⟩ ⟨1, ![E]⟩) (ix1 e) a' : Int)
        = (idx (ix2 e 0)).toInt := by
    intro a'
    obtain rfl : a' = 0 := Subsingleton.elim _ _
    have hw : ScatterDims.window (⟨[], [0], [0], 1, wf⟩ : ScatterDims ⟨1, ![N]⟩ ⟨2, ![E, 1]⟩ ⟨1, ![E]⟩) (ix1 e) 0 = 0 := rfl
    rw [hw]
    unfold ScatterDims.start
    rw [dif_pos (List.mem_singleton.mpr rfl)]
    simp only [Nat.cast_zero, add_zero]
    refine congrArg (fun i => (idx i).toInt) (?_ : _ = ix2 e 0)
    funext b; refine Fin.ext ?_
    match b with
    | ⟨0, _⟩ => rfl
    | ⟨1, _⟩ => rfl
  generalize (⟨[], [0], [0], 1, wf⟩ : ScatterDims ⟨1, ![N]⟩ ⟨2, ![E, 1]⟩ ⟨1, ![E]⟩) = D at key ⊢
  unfold ScatterDims.resultIdx?
  split
  · next hc =>
    -- the landing position is inside the array: it is a exactly when the signed index is a
    have hc0 := hc 0
    rw [key 0] at hc0
    rw [Option.some.injEq]
    constructor
    · intro hf
      have h0 : (D.start (ix1 e) idx 0 + (D.window (ix1 e) 0 : Int)).toNat = a.val :=
        congrArg (fun f : (⟨1, ![N]⟩ : Shape).Idx => (f 0).val) hf
      rw [key 0] at h0
      omega
    · intro hz
      funext a'
      obtain rfl : a' = 0 := Subsingleton.elim _ _
      refine Fin.ext ?_
      show (D.start (ix1 e) idx 0 + (D.window (ix1 e) 0 : Int)).toNat = a.val
      rw [key 0]
      omega
  · next hc =>
    -- the landing position is outside the array, so the signed index is no position of it
    constructor
    · intro h
      exact absurd h (by simp)
    · intro hz
      exfalso
      apply hc
      intro a'
      obtain rfl : a' = 0 := Subsingleton.elim _ _
      rw [key 0]
      show 0 ≤ _ ∧ _ < (N : Int)
      have := a.isLt
      omega

/-- The accumulating scatter into a flat array at position a: the element there plus the sum of the updates whose
    index, read signed, is a. -/
theorem scatterAdd_flat_apply {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![E, 1]⟩ w) (upd : (⟨1, ![E]⟩ : Shape).Idx → EReal)
    (a : Fin N) :
    Ideal.hostScatterAdd d x idx upd (ix1 a)
      = x (ix1 a) + ∑ e ∈ Finset.univ.filter (fun e : Fin E => (idx (ix2 e 0)).toInt = (a.val : Int)), upd (ix1 e) := by
  unfold Ideal.hostScatterAdd
  congr 1
  -- the update positions are the indices e of Fin E, through e ↦ ix1 e
  refine Finset.sum_nbij' (fun j => (j 0 : Fin E)) (fun e => ix1 e) ?_ ?_ ?_ ?_ ?_
  · intro j hj
    have h2 := (Finset.mem_filter.mp hj).2
    rw [eq_ix1 j] at h2
    exact Finset.mem_filter.mpr ⟨Finset.mem_univ _, (scatter_flat_resultIdx d huw hiw hsd hiv idx (j 0) a).mp h2⟩
  · intro e he
    exact Finset.mem_filter.mpr ⟨Finset.mem_univ _,
      (scatter_flat_resultIdx d huw hiw hsd hiv idx e a).mpr (Finset.mem_filter.mp he).2⟩
  · intro j _
    exact (eq_ix1 j).symm
  · intro e _
    rfl
  · intro j _
    exact congrArg upd (eq_ix1 j)

end Scatter

section Concatenate
variable {α : Type}

/-- Two flat arrays of extents n and p laid end to end: position j reads the first array below n and the second,
    at j - n, from n on. -/
theorem concatenate_flat_apply {n p t : Nat} (ht : t = n + p)
    (a : (⟨1, ![n]⟩ : Shape).Idx → α) (b : (⟨1, ![p]⟩ : Shape).Idx → α)
    (h : Shape.Concatenates [⟨1, ![n]⟩, ⟨1, ![p]⟩] ⟨1, ![t]⟩ 0) (j : Fin t) :
    concatenate ⟨1, ![t]⟩ 0 [⟨⟨1, ![n]⟩, a⟩, ⟨⟨1, ![p]⟩, b⟩] h (ix1 j)
      = if hj : j.val < n then a (ix1 ⟨j.val, hj⟩) else b (ix1 ⟨j.val - n, by omega⟩) := by
  by_cases hj : j.val < n
  · rw [dif_pos hj]
    exact concatenate_pair_apply_left 0 a b h (ix1 j) rfl (ix1 ⟨j.val, hj⟩) (fun c => by
      obtain rfl : c = 0 := Subsingleton.elim _ _
      rfl)
  · rw [dif_neg hj]
    exact concatenate_pair_apply_right 0 a b h (ix1 j) rfl rfl (ix1 ⟨j.val - n, by omega⟩)
      (fun c hc => absurd (Subsingleton.elim _ _) hc)
      (by show j.val - n + n = j.val; omega)

/-- Two columns of height E laid side by side: the entry in row e reads the first column at column 0 and the second
    at column 1. -/
theorem concatenate_cols_apply {E : Nat}
    (a b : (⟨2, ![E, 1]⟩ : Shape).Idx → α)
    (h : Shape.Concatenates [⟨2, ![E, 1]⟩, ⟨2, ![E, 1]⟩] ⟨2, ![E, 2]⟩ 1) (e : Fin E) (c : Fin 2) :
    concatenate ⟨2, ![E, 2]⟩ 1 [⟨⟨2, ![E, 1]⟩, a⟩, ⟨⟨2, ![E, 1]⟩, b⟩] h (ix2 e c)
      = if c.val = 0 then a (ix2 e 0) else b (ix2 e 0) := by
  match c with
  | ⟨0, _⟩ =>
    rw [if_pos rfl]
    exact concatenate_pair_apply_left 1 a b h (ix2 e 0) rfl (ix2 e 0) (fun c => by
      match c with
      | ⟨0, _⟩ => rfl
      | ⟨1, _⟩ => rfl)
  | ⟨1, _⟩ =>
    rw [if_neg Nat.one_ne_zero]
    exact concatenate_pair_apply_right 1 a b h (ix2 e 1) rfl rfl (ix2 e 0)
      (fun c hc => by
        match c with
        | ⟨0, _⟩ => rfl
        | ⟨1, _⟩ => exact absurd rfl hc)
      rfl

end Concatenate

end Cert.IndexOps

end
-- ==== Proof.LibScatterBridge.lean ====
/-
  The host's accumulating scatter into a flat array read at one index at the exact instance, stated over variable
  extents and operands, so that a program's scatter at its own literal extents is an instance of it.
-/
import proofs.«150654_j3977139716216_2_alg».proof.Proof.LibIndexOps
import Idealize.ShloMosaic.PureOps.Ideal

noncomputable section

open scoped BigOperators

namespace Cert.IndexOps

open Idealize.ShloMosaic Idealize.ShloMosaic.ValueIdx

/-- The host's accumulating scatter into a flat array at position a: the element there plus the sum of the updates
    whose index, read signed, is a. -/
theorem hostScatterAdd_flat {N E w : Nat}
    (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (x : FVec Ideal ⟨1, ![N]⟩ .f32) (idx : IVec ⟨2, ![E, 1]⟩ w) (upd : FVec Ideal ⟨1, ![E]⟩ .f32) (a : Fin N) :
    Host.scatterAdd (F := Ideal) d x idx upd (ix1 a)
      = x (ix1 a) + ∑ e ∈ Finset.univ.filter (fun e : Fin E => (idx (ix2 e 0)).toInt = (a.val : Int)), upd (ix1 e) := by
  simp only [Host.scatterAdd, Ideal.hostScatterAdd_def]
  exact scatterAdd_flat_apply d huw hiw hsd hiv x idx upd a

end Cert.IndexOps

end
-- ==== Proof.LibGcnScaledHop.lean ====
/-
  The pre-scaled layer read at an index, on real entries.

  Three facts, each for any number of nodes `N`, edges `E` and features `D`, about arrays over the extended reals
  whose entries are real numbers:

  * `count_value`: ones accumulated into a zero array at the edges' target words give, at node `n`, the number of
    edges arriving at `n` (an edge whose target word is no node lands nowhere);
  * `scale_value`: that count plus one, raised to the power `−1/2`, is the real `Gcn.scale`;
  * `scaled_layer_value`: gathering the rows of an already scaled array `h2 (n, j) = h n j · s n` at the edges'
    (normalised, clamped) source words, accumulating them at the target words into zero, adding `h2` itself and
    scaling row `n` by `s n` gives the real number `s n · (Σ_{e arriving at n} h (src e) j · s (src e) + h n j · s n)`.

  All entries being real is what lets the coercion `ℝ → EReal` pass through the sums and products.
-/
import proofs.«150654_j3977139716216_2_alg».proof.Proof.LibGcnSpec
import proofs.«150654_j3977139716216_2_alg».proof.Proof.LibRowOps
import proofs.«150654_j3977139716216_2_alg».proof.Proof.LibRealSum
import proofs.«150654_j3977139716216_2_alg».proof.Proof.LibScatterBridge

noncomputable section

open scoped BigOperators

namespace Cert.Gcn

open Idealize.ShloMosaic Idealize.ShloMosaic.ValueIdx Cert.IndexOps Cert.Lib.RowOps Cert.Lib.RealSum

variable {N E D : Nat}

/-- The edges whose target column entry reads `n` are the edges arriving at `n`. -/
theorem filter_eq_tgt (rowB : IVec ⟨2, ![E, 1]⟩ 32) (row : Fin E → BitVec 32) (hrow : ∀ e, rowB (ix2 e 0) = row e) (n : Fin N) :
    (Finset.univ.filter fun e : Fin E => (rowB (ix2 e 0)).toInt = (n.val : Int)) = tgt row n := by
  unfold tgt
  refine Finset.filter_congr fun e _ => ?_
  rw [hrow]

/-- Ones accumulated into zeros at the target words: at node `n`, the number of edges arriving there. -/
theorem count_value (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (z : FVec Ideal ⟨1, ![N]⟩ .f32) (hz : ∀ i, z i = 0) (rowB : IVec ⟨2, ![E, 1]⟩ 32) (row : Fin E → BitVec 32)
    (hrow : ∀ e, rowB (ix2 e 0) = row e) (ones : FVec Ideal ⟨1, ![E]⟩ .f32) (hone : ∀ i, ones i = ((1 : ℝ) : EReal))
    (n : Fin N) :
    Host.scatterAdd (F := Ideal) d z rowB ones (ix1 n) = (((tgt row n).card : ℝ) : EReal) := by
  rw [hostScatterAdd_flat d huw hiw hsd hiv, hz, zero_add, filter_eq_tgt rowB row hrow]
  simp only [hone]
  rw [← coe_sum, Finset.sum_const, nsmul_eq_mul, mul_one]

/-- The count plus one, to the power `−1/2`, is the node's scale. -/
theorem scale_value (row : Fin E → BitVec 32) (n : Fin N) (cnt one nh : EReal)
    (hcnt : cnt = (((tgt row n).card : ℝ) : EReal)) (hone : one = ((1 : ℝ) : EReal)) (hnh : nh = ((-(1 / 2) : ℝ) : EReal)) :
    FloatOps.hostPowf (F := Ideal) (φ := .f32) (FloatOps.addf (F := Ideal) (φ := .f32) cnt one) nh = ((scale row n : ℝ) : EReal) := by
  subst hcnt hone hnh
  show Ideal.pow ((((tgt row n).card : ℝ) : EReal) + ((1 : ℝ) : EReal)) (((-(1 / 2) : ℝ)) : EReal) = _
  rw [← EReal.coe_add, Ideal.pow_coe_coe]
  rfl

/-- The scale array — ones accumulated at the target words, plus one, to the power `−1/2` — holds the node's scale. -/
theorem scale_arr_value (d : ScatterDims ⟨1, ![N]⟩ ⟨2, ![E, 1]⟩ ⟨1, ![E]⟩)
    (huw : d.updateWindowDims = []) (hiw : d.insertedWindowDims = [0]) (hsd : d.scatterDimsToOperandDims = [0])
    (hiv : d.indexVectorDim = 1)
    (z : FVec Ideal ⟨1, ![N]⟩ .f32) (hz : ∀ i, z i = 0) (rowB : IVec ⟨2, ![E, 1]⟩ 32) (row : Fin E → BitVec 32)
    (hrow : ∀ e, rowB (ix2 e 0) = row e) (ones : FVec Ideal ⟨1, ![E]⟩ .f32) (hone : ∀ i, ones i = ((1 : ℝ) : EReal))
    (oneN nhN : FVec Ideal ⟨1, ![N]⟩ .f32) (h1 : ∀ i, oneN i = ((1 : ℝ) : EReal))
    (hnh : ∀ i, nhN i = ((-(1 / 2) : ℝ) : EReal)) (n : Fin N) :
    Host.powf (addf (Host.scatterAdd (F := Ideal) d z rowB ones) oneN) nhN (ix1 n) = ((scale row n : ℝ) : EReal) :=
  scale_value row n _ _ _ (count_value d huw hiw hsd hiv z hz rowB row hrow ones hone n) (h1 (ix1 n)) (hnh (ix1 n))

/-- The tiled stage's array on real inputs: `(Σ_k x (n, k) · w (j, k) + b j) · s n` as a real number. -/
theorem scaledLin_value {K : Nat} (x : (⟨2, ![N, K]⟩ : Shape).Idx → EReal) (w : (⟨2, ![D, K]⟩ : Shape).Idx → EReal)
    (b2 : (⟨2, ![1, D]⟩ : Shape).Idx → EReal) (s2 : (⟨2, ![N, 1]⟩ : Shape).Idx → EReal)
    (xr : (⟨2, ![N, K]⟩ : Shape).Idx → ℝ) (wr : (⟨2, ![D, K]⟩ : Shape).Idx → ℝ) (br : (⟨1, ![D]⟩ : Shape).Idx → ℝ)
    (s : Fin N → ℝ) (hx : ∀ i, x i = ((xr i : ℝ) : EReal)) (hw : ∀ i, w i = ((wr i : ℝ) : EReal))
    (hb : ∀ j : Fin D, b2 (ix2 (0 : Fin 1) j) = ((br (ix1 j) : ℝ) : EReal))
    (hs : ∀ n : Fin N, s2 (ix2 n (0 : Fin 1)) = ((s n : ℝ) : EReal)) (n : Fin N) (j : Fin D) :
    scaledLin x w b2 s2 (ix2 n j) = ((lin xr wr br n j * s n : ℝ) : EReal) := by
  show (∑ k : Fin K, x (ix2 n k) * w (ix2 j k) + b2 (ix2 (0 : Fin 1) j)) * s2 (ix2 n (0 : Fin 1)) = _
  rw [hb, hs]
  simp only [hx, hw, ← EReal.coe_mul]
  rw [← coe_sum, ← EReal.coe_add, ← EReal.coe_mul]
  rfl

/-- The pre-scaled layer at `(n, j)`. -/
theorem scaled_layer_value (hN : 0 < N)
    (wfG : GatherDims.WF ⟨2, ![N, D]⟩ ⟨2, ![E, 1]⟩ ⟨2, ![E, D]⟩ [1] [0] [] [0] [] 1 ![1, D])
    (wfS : ScatterDims.WF ⟨2, ![N, D]⟩ ⟨2, ![E, 1]⟩ ⟨2, ![E, D]⟩ [1] [0] [0] 1)
    (dg : GatherDims ⟨2, ![N, D]⟩ ⟨2, ![E, 1]⟩ ⟨2, ![E, D]⟩) (ds : ScatterDims ⟨2, ![N, D]⟩ ⟨2, ![E, 1]⟩ ⟨2, ![E, D]⟩)
    (hdg : dg = rowGather N E D wfG) (hds : ds = rowScatter N E D wfS)
    (rowB colB : IVec ⟨2, ![E, 1]⟩ 32) (row col : Fin E → BitVec 32)
    (hrow : ∀ e, rowB (ix2 e 0) = row e) (hcol : ∀ e, colB (ix2 e 0) = wrapWord (BitVec.ofNat 32 N) (col e))
    (z : FVec Ideal ⟨2, ![N, D]⟩ .f32) (hz : ∀ i, z i = 0)
    (h2 sB : FVec Ideal ⟨2, ![N, D]⟩ .f32) (h : Fin N → Fin D → ℝ) (s : Fin N → ℝ)
    (hh2 : ∀ n j, h2 (ix2 n j) = ((h n j * s n : ℝ) : EReal)) (hsB : ∀ n j, sB (ix2 n j) = ((s n : ℝ) : EReal))
    (n : Fin N) (j : Fin D) :
    mulf sB (addf (Host.scatterAdd ds z rowB (Host.gather dg h2 colB)) h2) (ix2 n j)
      = ((s n * ((∑ e ∈ tgt row n, h (nodeOf N hN (col e)) j * s (nodeOf N hN (col e))) + h n j * s n) : ℝ) : EReal) := by
  subst hdg hds
  show sB (ix2 n j) * (Ideal.hostScatterAdd (rowScatter N E D wfS) z rowB
      (fun y => h2 ((rowGather N E D wfG).operandIdx y colB)) (ix2 n j) + h2 (ix2 n j)) = _
  rw [scatterAdd_rows_apply, hz, zero_add, hsB, hh2, filter_eq_tgt rowB row hrow]
  have hg : ∀ e : Fin E, h2 ((rowGather N E D wfG).operandIdx (ix2 e j) colB)
      = ((h (nodeOf N hN (col e)) j * s (nodeOf N hN (col e)) : ℝ) : EReal) := by
    intro e
    have hc : clampRow hN colB e = nodeOf N hN (col e) := by
      refine Fin.ext ?_
      show min (colB (ix2 e 0)).toInt.toNat (N - 1) = min (wrapWord (BitVec.ofNat 32 N) (col e)).toInt.toNat (N - 1)
      rw [hcol]
    rw [rowGather_operandIdx hN, hc, hh2]
  simp only [hg]
  rw [← coe_sum, ← EReal.coe_add, ← EReal.coe_mul]

end Cert.Gcn

end
-- ==== Proof.LibColumnLayouts.lean ====
/-
  Flat arrays, rows and columns: the re-layings the two programs use, read at an index, for any extents.

  * `flat_of_row`: row `r` of an `[R, E]` array cut out as `[1, E]` and re-laid flat reads, at `e`, the array at `(r, e)`;
  * `column_of_flat`: a flat `[E]` array spread to a column `[E, 1]` reads, at `(e, 0)`, its entry `e`;
  * `column_cast`, `row_cast`: a flat array re-laid as a column `[N, 1]` or a row `[1, D]` reads its entry `n` at `(n, 0)`,
    its entry `j` at `(0, j)`.
-/
import Idealize.ShloMosaic.Lib.ValueIdx
import Idealize.ShloMosaic.Lib.Pipeline.Value

noncomputable section

namespace Cert.Layouts

open Idealize.ShloMosaic Idealize.ShloMosaic.ValueIdx

variable {α : Type} {R E N D : Nat}

/-- Row `r` of an `[R, E]` array, cut out and re-laid flat, at position `e`. -/
theorem flat_of_row (r : Fin R) (off : Fin 2 → Nat) (h0 : off 0 = r.val) (h1 : off 1 = 0)
    (x : (⟨2, ![R, E]⟩ : Shape).Idx → α) (hs : (⟨2, ![R, E]⟩ : Shape).Slices off ⟨2, ![1, E]⟩)
    (hc : (⟨2, ![1, E]⟩ : Shape).ShapeCasts ⟨1, ![E]⟩) (e : Fin E) :
    shapeCast ⟨1, ![E]⟩ (extractStridedSlice ⟨2, ![1, E]⟩ off x hs) hc (ix1 e) = x (ix2 r e) := by
  rw [shapeCast_apply _ hc (ix1 e) (ix2 (0 : Fin 1) e) (by
    rw [Shape.rowMajor_val_two, Shape.rowMajor_val_one]
    show 0 * E + e.val = e.val
    omega)]
  exact extractStridedSlice_apply off x hs (ix2 (0 : Fin 1) e) (ix2 r e) (fun a => match a with
    | ⟨0, _⟩ => by show r.val = off 0 + 0; omega
    | ⟨1, _⟩ => by show e.val = off 1 + e.val; omega)

/-- A flat array spread to a column, at `(e, 0)`. -/
theorem column_of_flat (hE : E ≠ 1) (h : (⟨1, ![E]⟩ : Shape).BroadcastsInDim ⟨2, ![E, 1]⟩ (![0] : Fin 1 → Fin 2))
    (x : (⟨1, ![E]⟩ : Shape).Idx → α) (e : Fin E) :
    broadcastInDim ⟨2, ![E, 1]⟩ (![0] : Fin 1 → Fin 2) h x (ix2 e (0 : Fin 1)) = x (ix1 e) :=
  broadcastInDim_apply _ h _ (ix2 e (0 : Fin 1)) (ix1 e) (fun a => match a with
    | ⟨0, _⟩ => by show e.val = if E = 1 then 0 else e.val; rw [if_neg hE])

/-- A flat array re-laid as a column, at `(n, 0)`. -/
theorem column_cast (x : (⟨1, ![N]⟩ : Shape).Idx → α) (h : (⟨1, ![N]⟩ : Shape).ShapeCasts ⟨2, ![N, 1]⟩) (n : Fin N) :
    shapeCast ⟨2, ![N, 1]⟩ x h (ix2 n (0 : Fin 1)) = x (ix1 n) :=
  shapeCast_apply x h (ix2 n (0 : Fin 1)) (ix1 n) (by
    rw [Shape.rowMajor_val_two, Shape.rowMajor_val_one]
    show n.val = n.val * 1 + 0
    omega)

/-- A flat array re-laid as a row, at `(0, j)`. -/
theorem row_cast (x : (⟨1, ![D]⟩ : Shape).Idx → α) (h : (⟨1, ![D]⟩ : Shape).ShapeCasts ⟨2, ![1, D]⟩) (j : Fin D) :
    shapeCast ⟨2, ![1, D]⟩ x h (ix2 (0 : Fin 1) j) = x (ix1 j) :=
  shapeCast_apply x h (ix2 (0 : Fin 1) j) (ix1 j) (by
    rw [Shape.rowMajor_val_two, Shape.rowMajor_val_one]
    show j.val = 0 * D + j.val
    omega)

end Cert.Layouts

end
-- ==== Proof.LibPropagate.lean ====
/-
  A graph propagation step commutes with a product by a matrix on the feature axis.

  One propagation step on an `[N, F]` array `h` is `h' (n, f) = ∑ { e : col e = n }  h (row e, f) · ν e`: a gather of whole
  rows (`row e`, clamped), a scale by the edge's coefficient `ν e`, and an accumulating scatter onto the rows `col e`
  (`hop`, over the dimension numbers of `RowOps`; `hop_apply` reads it at an index). The rows an edge reads and
  writes depend on the two index arrays only, never on the column `f`, so the step acts on each column separately
  and is linear in it. Hence, for REAL entries `r`, real coefficients `ν` and a real `[K, J]` matrix `w`,

      hop (r · w)  =  (hop r) · w          (`hop_contract`, with `hop_real`: the step of a real array is real)

  where `r · w` is the matrix product `contract r w (n, j) = ∑ k, r (n, k) · w (k, j)`: propagating the `J`-wide
  product is the product of the propagated `K`-wide array. The law under it is `RealSum.step_comm`; reality of the
  entries is what makes the product distribute over the extended reals' sums.

  Also here: the two broadcasts a printed step is made of, read at an index (`zeros_apply`: the zero array the
  scatter accumulates into; `rowBroadcast_apply`: an `[E]` array of coefficients spread along the columns of `[E, F]`).
-/
import proofs.«150654_j3977139716216_2_alg».proof.Proof.LibRowOps
import proofs.«150654_j3977139716216_2_alg».proof.Proof.LibRealSum
import Idealize.ShloMosaic.Lib.Pipeline.Value
import Idealize.ShloMosaic.PureOps.Ideal.Laws

noncomputable section

open scoped BigOperators

namespace Cert.Lib.Propagate

open Idealize.ShloMosaic Idealize.ShloMosaic.ValueIdx Cert.Lib.RowOps Cert.Lib.RealSum

variable {N E F K J : Nat}

/-- One propagation step at the ideal values: rows gathered by `rowI`, scaled entry by entry by `nB`, accumulated by
    `colI` into `zArr`. -/
def hop (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) :
    (⟨2, ![N, F]⟩ : Shape).Idx → EReal :=
  Ideal.hostScatterAdd (rowScatter N E F wfS) zArr colI
    (fun j => h ((rowGather N E F wfG).operandIdx j rowI) * nB j)

/-- The step read at `(n, f)`: what was there plus, over the edges `e` whose target reads `n`, the source row's entry in
    column `f` times the edge's coefficient there. -/
theorem hop_apply (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) (n : Fin N) (f : Fin F) :
    hop wfG wfS rowI colI zArr nB h (ix2 n f)
      = zArr (ix2 n f) + ∑ e ∈ Finset.univ.filter (fun e : Fin E => (colI (ix2 e 0)).toInt = (n.val : Int)),
          h (ix2 (clampRow hN rowI e) f) * nB (ix2 e f) := by
  unfold hop
  rw [scatterAdd_rows_apply]
  refine congrArg (zArr (ix2 n f) + ·) (Finset.sum_congr rfl fun e _ => ?_)
  show h ((rowGather N E F wfG).operandIdx (ix2 e f) rowI) * nB (ix2 e f) = _
  rw [rowGather_operandIdx hN]

/-- The step on real entries, as a real array. -/
def stepReal (hN : 0 < N) (rowI colI : IVec ⟨2, ![E, 1]⟩ 32) (ν : Fin E → ℝ)
    (r : (⟨2, ![N, F]⟩ : Shape).Idx → ℝ) : (⟨2, ![N, F]⟩ : Shape).Idx → ℝ :=
  fun x => ∑ e ∈ Finset.univ.filter (fun e : Fin E => (colI (ix2 e 0)).toInt = ((x 0).val : Int)),
    r (ix2 (clampRow hN rowI e) (⟨(x 1).val, idx2_lt1 x⟩ : Fin F)) * ν e

/-- The matrix product of a real `[N, K]` array with a real `[K, J]` matrix. -/
def contract (r : (⟨2, ![N, K]⟩ : Shape).Idx → ℝ) (w : (⟨2, ![K, J]⟩ : Shape).Idx → ℝ) :
    (⟨2, ![N, J]⟩ : Shape).Idx → ℝ :=
  fun y => ∑ k : Fin K, r (ix2 (⟨(y 0).val, idx2_lt0 y⟩ : Fin N) k) * w (ix2 k (⟨(y 1).val, idx2_lt1 y⟩ : Fin J))

/-- The coercion of an entry of the product is the sum of the coerced products. -/
theorem contract_coe (r : (⟨2, ![N, K]⟩ : Shape).Idx → ℝ) (w : (⟨2, ![K, J]⟩ : Shape).Idx → ℝ) (n : Fin N) (j : Fin J) :
    ((contract r w (ix2 n j) : ℝ) : EReal) = ∑ k : Fin K, (r (ix2 n k) : EReal) * (w (ix2 k j) : EReal) := by
  show ((∑ k : Fin K, r (ix2 n k) * w (ix2 k j) : ℝ) : EReal) = _
  rw [coe_sum]
  simp only [EReal.coe_mul]

/-- The step of a real array is the real array `stepReal`. -/
theorem hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (hz : ∀ i, zArr i = 0) (ν : Fin E → ℝ)
    (hn : ∀ e f, nB (ix2 e f) = (ν e : EReal)) (r : (⟨2, ![N, F]⟩ : Shape).Idx → ℝ) :
    hop wfG wfS rowI colI zArr nB (fun x => (r x : EReal)) = fun x => ((stepReal hN rowI colI ν r x : ℝ) : EReal) := by
  funext x
  obtain ⟨n, f, rfl⟩ : ∃ (n : Fin N) (f : Fin F), x = ix2 n f := ⟨x 0, x 1, eq_ix2 x⟩
  rw [hop_apply hN, hz]
  simp only [hn]
  exact step_real _ (fun e => r (ix2 (clampRow hN rowI e) f)) ν

/-- PROPAGATION COMMUTES WITH THE PRODUCT: the step of the `J`-wide product `r · w` is the product with `w` of the step
    of the `K`-wide array `r` — the same index arrays and coefficients on both widths. -/
theorem hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (rowI colI : IVec ⟨2, ![E, 1]⟩ 32) (zArr : (⟨2, ![N, J]⟩ : Shape).Idx → EReal)
    (nB : (⟨2, ![E, J]⟩ : Shape).Idx → EReal) (hz : ∀ i, zArr i = 0) (ν : Fin E → ℝ)
    (hn : ∀ e j, nB (ix2 e j) = (ν e : EReal))
    (r : (⟨2, ![N, K]⟩ : Shape).Idx → ℝ) (w : (⟨2, ![K, J]⟩ : Shape).Idx → ℝ) :
    hop wfG wfS rowI colI zArr nB (fun y => ((contract r w y : ℝ) : EReal))
      = fun y => ((contract (stepReal hN rowI colI ν r) w y : ℝ) : EReal) := by
  funext y
  obtain ⟨n, j, rfl⟩ : ∃ (n : Fin N) (j : Fin J), y = ix2 n j := ⟨y 0, y 1, eq_ix2 y⟩
  rw [hop_apply hN, hz]
  simp only [hn]
  exact step_comm _ (fun e k => r (ix2 (clampRow hN rowI e) k)) ν (fun k => w (ix2 k j))

/-! ## The step as a program prints it

A printed step is `Host.scatterAdd ds zArr colI (mulf (Host.gather dg h rowI) nB)` over the program's own dimension
records; when those are the row records of `RowOps` it is `hop`. Stated over arbitrary records equal to them, so that at
a program's literal shapes the printed term is met as it stands. -/

/-- The printed step is `hop`. -/
theorem host_hop_eq
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (h : FVec Ideal ⟨2, ![N, F]⟩ .f32) :
    Host.scatterAdd ds zArr colI (mulf (Host.gather dg h rowI) nB) = hop wfG wfS rowI colI zArr nB h := by
  subst hdg hds
  rfl

/-- The printed step of a real array is the real array `stepReal`. -/
theorem host_hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (hz : ∀ i, zArr i = 0) (ν : Fin E → ℝ) (hn : ∀ e f, nB (ix2 e f) = (ν e : EReal))
    (r : (⟨2, ![N, F]⟩ : Shape).Idx → ℝ) :
    Host.scatterAdd ds zArr colI (mulf (Host.gather dg (fun x => (r x : EReal)) rowI) nB)
      = fun x => ((stepReal hN rowI colI ν r x : ℝ) : EReal) :=
  (host_hop_eq wfG wfS dg ds hdg hds rowI colI zArr nB _).trans (hop_real hN wfG wfS rowI colI zArr nB hz ν hn r)

/-- The printed step of the `J`-wide product `r · w` is the product with `w` of the step of `r`. -/
theorem host_hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (dg : GatherDims ⟨2, ![N, J]⟩ ⟨2, ![E, 1]⟩ ⟨2, ![E, J]⟩) (ds : ScatterDims ⟨2, ![N, J]⟩ ⟨2, ![E, 1]⟩ ⟨2, ![E, J]⟩)
    (hdg : dg = rowGather N E J wfG) (hds : ds = rowScatter N E J wfS)
    (rowI colI : IVec ⟨2, ![E, 1]⟩ 32) (zArr : FVec Ideal ⟨2, ![N, J]⟩ .f32) (nB : FVec Ideal ⟨2, ![E, J]⟩ .f32)
    (hz : ∀ i, zArr i = 0) (ν : Fin E → ℝ) (hn : ∀ e j, nB (ix2 e j) = (ν e : EReal))
    (r : (⟨2, ![N, K]⟩ : Shape).Idx → ℝ) (w : (⟨2, ![K, J]⟩ : Shape).Idx → ℝ) :
    Host.scatterAdd ds zArr colI (mulf (Host.gather dg (fun y => ((contract r w y : ℝ) : EReal)) rowI) nB)
      = fun y => ((contract (stepReal hN rowI colI ν r) w y : ℝ) : EReal) :=
  (host_hop_eq wfG wfS dg ds hdg hds rowI colI zArr nB _).trans (hop_contract hN wfG wfS rowI colI zArr nB hz ν hn r w)

/-- The zero array an accumulating scatter starts from: the f32 zero word broadcast to any shape reads `0`. -/
theorem zeros_apply {t : Shape} (h : (⟨0, ![]⟩ : Shape).BroadcastsInDim t (![] : Fin 0 → Fin t.rank)) (i : t.Idx) :
    broadcastInDim t (![] : Fin 0 → Fin t.rank) h (constant (F := Ideal) ⟨0, ![]⟩ .f32 0x00000000#32) i = 0 := by
  rw [broadcastInDim_apply _ h _ i ix0 (fun a => a.elim0)]
  exact Ideal.ofBits_zero_f32

/-- An `[E]` array spread over the columns of `[E, F]` (through `[E, 1]`) reads, at `(e, f)`, its entry `e`. -/
theorem rowBroadcast_apply {α : Type} (hE : E ≠ 1)
    (h1 : (⟨1, ![E]⟩ : Shape).BroadcastsInDim ⟨2, ![E, 1]⟩ (![0] : Fin 1 → Fin 2))
    (h2 : (⟨2, ![E, 1]⟩ : Shape).BroadcastsInDim ⟨2, ![E, F]⟩ (![0, 1] : Fin 2 → Fin 2))
    (x : (⟨1, ![E]⟩ : Shape).Idx → α) (e : Fin E) (f : Fin F) :
    broadcastInDim ⟨2, ![E, F]⟩ (![0, 1] : Fin 2 → Fin 2) h2 (broadcastInDim ⟨2, ![E, 1]⟩ (![0] : Fin 1 → Fin 2) h1 x) (ix2 e f)
      = x (ix1 e) := by
  rw [broadcastInDim_apply _ h2 _ (ix2 e f) (ix2 e (0 : Fin 1)) (fun a => match a with
    | ⟨0, _⟩ => by show e.val = if E = 1 then 0 else e.val; rw [if_neg hE]
    | ⟨1, _⟩ => by show 0 = if (1 : Nat) = 1 then 0 else f.val; rw [if_pos rfl])]
  rw [broadcastInDim_apply _ h1 _ (ix2 e (0 : Fin 1)) (ix1 e) (fun a => match a with
    | ⟨0, _⟩ => by show e.val = if E = 1 then 0 else e.val; rw [if_neg hE])]

end Cert.Lib.Propagate

end
-- ==== Proof.KernelLayer.lean ====
/-
  The tiled program's result, read at an index, is the pre-scaled layer.

  With real inputs `x`, `w`, `b`: the per-node scale array holds `Gcn.scale` (the count of arriving edges plus one, to
  the power `−1/2`); the tiled stage's array `scaledLin` holds `lin n j · scale n`; and what follows the stage —
  gather at the sources, accumulate at the targets, add, scale — is `Gcn.layerScaled` at every `(n, j)`.
-/
import proofs.«150654_j3977139716216_2_alg».proof.Proof.KernelProgram
import proofs.«150654_j3977139716216_2_alg».proof.Proof.LibGcnScaledHop
import proofs.«150654_j3977139716216_2_alg».proof.Proof.LibColumnLayouts
import proofs.«150654_j3977139716216_2_alg».proof.Proof.LibPropagate

set_option maxRecDepth 16384

noncomputable section

open scoped BigOperators

namespace Cert.KernelIdeal.HostSide

open Cert.KernelIdeal Cert.KernelIdeal.Facts₀ Cert.KernelIdeal.Facts
open Idealize.ShloMosaic Idealize.ShloMosaic.ValueIdx Cert.Gcn Cert.Layouts Cert.Lib.RealSum Cert.Lib.RowOps

variable (ei : IVec S2x1600000 32)

/-- The target word of edge `e`. -/
abbrev rowW (e : Fin 1600000) : BitVec 32 := ei (ix2 (0 : Fin 2) e)
/-- The source word of edge `e`. -/
abbrev colW (e : Fin 1600000) : BitVec 32 := ei (ix2 (1 : Fin 2) e)

/-- The targets' column reads, at `(e, 0)`, edge `e`'s target word. -/
theorem rows_column (e : Fin 1600000) :
    broadcastInDim S1600000x1 ![0] bcast_S1600000_S1600000x1_0 (wordsArr ![0, 0] slices_S2x1600000_S1x1600000_0_0 ei) (ix2 e 0)
      = rowW ei e := by
  rw [column_of_flat (by norm_num)]
  exact flat_of_row (0 : Fin 2) ![0, 0] rfl rfl ei _ _ e

/-- The normalised sources' column reads, at `(e, 0)`, edge `e`'s source word normalised. -/
theorem cols_column (e : Fin 1600000) :
    broadcastInDim S1600000x1 ![0] bcast_S1600000_S1600000x1_0
        (select
          (cmpi .slt (wordsArr ![1, 0] slices_S2x1600000_S1x1600000_1_0 ei)
            (broadcastInDim S1600000 ![] bcast_S_S1600000 (constantI S_ 32 0#32)))
          (addi (wordsArr ![1, 0] slices_S2x1600000_S1x1600000_1_0 ei)
            (broadcastInDim S1600000 ![] bcast_S_S1600000 (constantI S_ 32 100000#32)))
          (wordsArr ![1, 0] slices_S2x1600000_S1x1600000_1_0 ei)) (ix2 e 0)
      = wrapWord (BitVec.ofNat 32 100000) (colW ei e) := by
  rw [column_of_flat (by norm_num)]
  have hw : wordsArr ![1, 0] slices_S2x1600000_S1x1600000_1_0 ei (ix1 e) = colW ei e :=
    flat_of_row (1 : Fin 2) ![1, 0] rfl rfl ei _ _ e
  show Scalar.select (IntOp.cmpi .slt (wordsArr ![1, 0] slices_S2x1600000_S1x1600000_1_0 ei (ix1 e)) 0#32)
      (IntOp.addi (wordsArr ![1, 0] slices_S2x1600000_S1x1600000_1_0 ei (ix1 e)) 100000#32)
      (wordsArr ![1, 0] slices_S2x1600000_S1x1600000_1_0 ei (ix1 e)) = _
  rw [hw]
  rfl

/-- A float word spread over any shape reads that word's value at every index. -/
theorem splat_apply {t : Shape} (h : (⟨0, ![]⟩ : Shape).BroadcastsInDim t (![] : Fin 0 → Fin t.rank)) (b : BitVec 32)
    (i : t.Idx) :
    broadcastInDim t (![] : Fin 0 → Fin t.rank) h (constant (F := Ideal) ⟨0, ![]⟩ .f32 b) i = Ideal.ofBits .f32 b := rfl

/-- The scale array holds the node's scale. -/
theorem scaleArr_apply (n : Fin 100000) : scaleArr ei (ix1 n) = ((scale (rowW ei) n : ℝ) : EReal) := by
  unfold scaleArr countArr
  exact scale_arr_value scatter_S100000_S1600000x1_S1600000_n_0_0_1 rfl rfl rfl rfl _
    (fun i => Cert.Lib.Propagate.zeros_apply bcast_S_S100000 i) _ (rowW ei) (rows_column ei) _
    (fun i => (splat_apply bcast_S_S1600000 _ i).trans ofBits_one) _ _
    (fun i => (splat_apply bcast_S_S100000 _ i).trans ofBits_one)
    (fun i => (splat_apply bcast_S_S100000 _ i).trans ofBits_neg_half) n

variable (xr : S100000x128.Idx → ℝ) (wr : S128x128.Idx → ℝ) (br : S128.Idx → ℝ)

/-- The tiled stage's array on real inputs, with the scale column and the bias row as the program lays them. -/
def stageArr : FVec Ideal S100000x128 .f32 :=
  scaledLin (N := 100000) (D := 128) (K := 128) (fun i => ((xr i : ℝ) : EReal)) (fun i => ((wr i : ℝ) : EReal))
    (shapeCast S1x128 (fun i => ((br i : ℝ) : EReal)) shapeCasts_S128_S1x128)
    (shapeCast S100000x1 (scaleArr ei) shapeCasts_S100000_S100000x1)

/-- It holds `lin n j · scale n`. -/
theorem stageArr_apply (n : Fin 100000) (j : Fin 128) :
    stageArr ei xr wr br (ix2 n j) = ((lin xr wr br n j * scale (rowW ei) n : ℝ) : EReal) := by
  unfold stageArr
  exact scaledLin_value _ _ _ _ xr wr br (scale (rowW ei)) (fun _ => rfl) (fun _ => rfl)
    (fun j => row_cast _ shapeCasts_S128_S1x128 j)
    (fun n => (column_cast _ shapeCasts_S100000_S100000x1 n).trans (scaleArr_apply ei n)) n j

/-- What follows the stage, of the stage's array, is the pre-scaled layer. -/
theorem afterStage_apply (n : Fin 100000) (j : Fin 128) :
    afterStage ei (stageArr ei xr wr br) (ix2 n j)
      = ((layerScaled (N := 100000) (E := 1600000) (D := 128) (by norm_num) (rowW ei) (colW ei) (lin xr wr br) n j : ℝ) : EReal) := by
  unfold afterStage
  exact scaled_layer_value (N := 100000) (E := 1600000) (D := 128) (by norm_num)
    gather_S100000x128_S1600000x1_S1600000x128_1_0_n_n_0_1_1128.wf
    scatter_S100000x128_S1600000x1_S1600000x128_1_0_0_1.wf
    gather_S100000x128_S1600000x1_S1600000x128_1_0_n_n_0_1_1128
    scatter_S100000x128_S1600000x1_S1600000x128_1_0_0_1 rfl rfl
    _ _ (rowW ei) (colW ei) (rows_column ei) (cols_column ei)
    _ (fun i => Cert.Lib.Propagate.zeros_apply bcast_S_S100000x128 i)
    (stageArr ei xr wr br) _ (lin xr wr br) (scale (rowW ei))
    (stageArr_apply ei xr wr br)
    (fun n j => (Cert.Lib.Propagate.rowBroadcast_apply (by norm_num) bcast_S100000_S100000x1_0 bcast_S100000x1_S100000x128_0_1
      (scaleArr ei) n j).trans (scaleArr_apply ei n))
    n j

end Cert.KernelIdeal.HostSide

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.StagePayload.lean ====
/-
  What one block of the tiled stage stores, entry by entry.

  The body takes a block of `10000` rows of the features `x`, the whole weight matrix `w`, the bias as a
  one-row array `b` and the matching `10000` entries of a column `s`, and stores `(x · wᵀ + b) * s`. At the
  extended reals a change of float format is the identity, the transposed weight matrix read at `(k, q)` is
  `w (q, k)`, a product into the zero accumulator is the plain sum of products over the contracted axis, the
  one-row bias broadcast down the rows reads its entry `(0, q)`, and the one-column scale broadcast along the
  columns reads its entry `(p, 0)`. So entry `(p, q)` of the stored block is
  `(∑ k, x (p, k) * w (q, k) + b (0, q)) * s (p, 0)`.
-/
import proofs.«150654_j3977139716216_2_alg».proof.Proof.Gen.KernelIdeal.Skeleton
import proofs.«150654_j3977139716216_2_alg».proof.Proof.LibPlainDot
import Idealize.ShloMosaic.Lib.Pipeline.Value
import Idealize.ShloMosaic.Lib.ValueLayout

noncomputable section

open scoped BigOperators

namespace Cert.KernelIdeal.TiledStage

open Idealize.ShloMosaic Idealize.ShloMosaic.ValueIdx Cert.KernelIdeal Cert.KernelIdeal.Gen

/-- The block's dimension numbers are those of a plain product: rows of the left operand against columns of
    the right one, the left operand's columns contracted against the right operand's rows. -/
theorem dot_isPlain : Cert.PlainDot.IsPlain dot_S10000x128_S128x128_S10000x128_1_0_0_1_n_n :=
  ⟨rfl, rfl, rfl, rfl, rfl, rfl⟩

/-- The transposed weight matrix read at `(k, q)` is the weight matrix at `(q, k)`. -/
theorem transposed_apply (w : (⟨2, ![128, 128]⟩ : Shape).Idx → EReal) (h : S128x128.Transposes [1, 0] S128x128)
    (k q : Fin 128) : transpose S128x128 [1, 0] w h (ix2 k q) = w (ix2 q k) :=
  transpose_apply [1, 0] w h (ix2 k q) (ix2 q k) fun b => by
    match b with
    | ⟨0, _⟩ => rfl
    | ⟨1, _⟩ => rfl

/-- A one-column array broadcast along the columns, read at `(p, q)`, is its entry `(p, 0)`. -/
theorem column_broadcast_apply {a b : ℕ} (hb : b ≠ 1 ∨ a = 1) (v : (⟨2, ![a, 1]⟩ : Shape).Idx → EReal)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Entry `(p, q)` of the block the body stores: the row `p` of the feature block against the row `q` of the
    weights, plus the bias entry `q`, times the scale entry `p`. -/
theorem payload_apply (x0 : Vec Ideal S10000x128 .f32) (x1 : Vec Ideal S128x128 .f32) (x2 : Vec Ideal S1x128 .f32)
    (x3 : Vec Ideal S10000x1 .f32) (p : Fin 10000) (q : Fin 128) :
    k0_pay1 (F := Ideal) x0 x1 x2 x3 (ix2 p q)
      = (∑ k : Fin 128, x0 (ix2 p k) * x1 (ix2 q k) + x2 (ix2 (0 : Fin 1) q)) * x3 (ix2 p (0 : Fin 1)) := by
  unfold k0_pay1
  -- the last two operations are pointwise: a product of a sum
  show (matmul (F := Ideal) dot_S10000x128_S128x128_S10000x128_1_0_0_1_n_n none (truncf (F := Ideal) .bf16 x0 bitsLt_bf16_f32)
          (transpose S128x128 [1, 0] (truncf (F := Ideal) .bf16 x1 bitsLt_bf16_f32) transposes_S128x128_p1_0_S128x128)
          (constant (F := Ideal) S10000x128 .f32 0x00000000#32) (ix2 p q)
        + broadcastTo S10000x128 (shapeCast S1x128 x2 shapeCasts_S1x128_S1x128) broadcasts_S1x128_S10000x128 (ix2 p q))
      * broadcastTo S10000x128 (shapeCast S10000x1 x3 shapeCasts_S10000x1_S10000x1) broadcasts_S10000x1_S10000x128 (ix2 p q)
      = _
  -- the product into the zero accumulator, as a sum over the contracted axis
  have hdot : matmul (F := Ideal) dot_S10000x128_S128x128_S10000x128_1_0_0_1_n_n none (truncf (F := Ideal) .bf16 x0 bitsLt_bf16_f32)
        (transpose S128x128 [1, 0] (truncf (F := Ideal) .bf16 x1 bitsLt_bf16_f32) transposes_S128x128_p1_0_S128x128)
        (constant (F := Ideal) S10000x128 .f32 0x00000000#32) (ix2 p q)
      = ∑ k : Fin 128, x0 (ix2 p k) * x1 (ix2 q k) := by
    refine (Cert.PlainDot.matmul_zero_apply dot_S10000x128_S128x128_S10000x128_1_0_0_1_n_n dot_isPlain none _ _ p q).trans ?_
    refine Finset.sum_congr rfl fun k _ => ?_
    exact congrArg (fun z => x0 (ix2 p k) * z) (transposed_apply x1 transposes_S128x128_p1_0_S128x128 k q)
  -- the bias row broadcast down the rows
  have hbias : broadcastTo S10000x128 (shapeCast S1x128 x2 shapeCasts_S1x128_S1x128) broadcasts_S1x128_S10000x128 (ix2 p q)
      = x2 (ix2 (0 : Fin 1) q) := by
    refine (broadcastTo_1b_ab_apply _ broadcasts_S1x128_S10000x128 p q).trans ?_
    exact congrFun (shapeCast_self x2 shapeCasts_S1x128_S1x128) _
  -- the scale column broadcast along the columns
  have hscale : broadcastTo S10000x128 (shapeCast S10000x1 x3 shapeCasts_S10000x1_S10000x1) broadcasts_S10000x1_S10000x128 (ix2 p q)
      = x3 (ix2 p (0 : Fin 1)) := by
    refine (column_broadcast_apply (.inl (by omega)) _ broadcasts_S10000x1_S10000x128 p q).trans ?_
    exact congrFun (shapeCast_self x3 shapeCasts_S10000x1_S10000x1) _
  rw [hdot, hbias, hscale]

end Cert.KernelIdeal.TiledStage

end
-- ==== Proof.StageBlocks.lean ====
/-
  The blocks of the tiled stage, read as parts of the whole arrays.

  The stage runs over ten grid points. At point `t` the feature window, the scale window and the output window
  all stand at block `(t, 0)`: rows `10000 · t … 10000 · t + 9999` of their arrays. The weight window and the
  bias window stand at block `(0, 0)` at every point: each is its whole array. A block's entry `y` is the
  array's entry at (block index × block extent + `y`'s coordinate) on each axis, so, whatever the arrays hold,

  * entry `(p, k)` of the feature block at `t` is entry `(10000 · t + p, k)` of the features,
  * entry `(p, 0)` of the scale block at `t` is entry `(10000 · t + p, 0)` of the scale column,
  * the weight block and the bias block are read at the same index as their arrays,

  and an entry of the output array lies in point `t`'s block exactly when its row is in that range.
  Every statement here is about an arbitrary array of the window's shape: what the arrays hold plays no part.
-/
import proofs.«150654_j3977139716216_2_alg».proof.Proof.Gen.KernelIdeal.Frame
import Idealize.ShloMosaic.Lib.Pipeline.Value
import Idealize.ShloMosaic.PureOps.Ideal

noncomputable section

namespace Cert.KernelIdeal.TiledStage

open Cert.KernelIdeal Cert.KernelIdeal.Gen Idealize.ShloMosaic Idealize.ShloMosaic.TcCoe Idealize.SL.Sem
open Idealize.ShloMosaic.Pipeline (Dat)

/-- Where each window stands at grid point `t`: the three moving windows at block `(t, 0)`, the two whole-array
    windows at block `(0, 0)`. Decided once over the ten points. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- There are ten grid points. -/
theorem point_lt (t : Fin cfg0.N) : t.val < 10 := by
  have h : cfg0.N = 10 := N_0
  have := t.isLt
  omega

/-- Entry `y` of the feature block at point `t` is the array's entry `10000 · t` rows further down. -/
theorem feature_block_read (A : S100000x128.Idx → EReal) (t : Fin cfg0.N) (y : S10000x128.Idx) (i : S100000x128.Idx)
    (h0 : (i 0).val = t.val * 10000 + (y 0).val) (h1 : (i 1).val = (y 1).val) :
    ((cfg0.win 0).blk t).view.read (Elt Ideal) A y = A i := by
  obtain ⟨e0, e1, -⟩ := block_index t
  have he : ((cfg0.win 0).blk t).view.emb y = i := by
    funext a; apply Fin.ext
    match a with
    | ⟨0, _⟩ => show win0_0.index t (0 : Fin 2) * 10000 + 1 * (y 0).val = (i 0).val; rw [e0, h0]; omega
    | ⟨1, _⟩ => show win0_0.index t (1 : Fin 2) * 128 + 1 * (y 1).val = (i 1).val; rw [e1, h1]; omega
  rw [View.read_apply, he]
  rfl

/-- The weight block at any point is the whole array. -/
theorem weight_block_read (A : S128x128.Idx → EReal) (t : Fin cfg0.N) (y : S128x128.Idx) :
    ((cfg0.win 1).blk t).view.read (Elt Ideal) A y = A y := by
  obtain ⟨-, -, e0, e1, -⟩ := block_index t
  have he : ((cfg0.win 1).blk t).view.emb y = y := by
    funext a; apply Fin.ext
    match a with
    | ⟨0, _⟩ => show win0_1.index t (0 : Fin 2) * 128 + 1 * (y 0).val = (y 0).val; rw [e0]; omega
    | ⟨1, _⟩ => show win0_1.index t (1 : Fin 2) * 128 + 1 * (y 1).val = (y 1).val; rw [e1]; omega
  rw [View.read_apply, he]
  rfl

/-- The bias block at any point is the whole one-row array. -/
theorem bias_block_read (A : S1x128.Idx → EReal) (t : Fin cfg0.N) (y : S1x128.Idx) :
    ((cfg0.win 2).blk t).view.read (Elt Ideal) A y = A y := by
  obtain ⟨-, -, -, -, e0, e1, -⟩ := block_index t
  have he : ((cfg0.win 2).blk t).view.emb y = y := by
    funext a; apply Fin.ext
    match a with
    | ⟨0, _⟩ => show win0_2.index t (0 : Fin 2) * 1 + 1 * (y 0).val = (y 0).val; rw [e0]; omega
    | ⟨1, _⟩ => show win0_2.index t (1 : Fin 2) * 128 + 1 * (y 1).val = (y 1).val; rw [e1]; omega
  rw [View.read_apply, he]
  rfl

/-- Entry `y` of the scale block at point `t` is the column's entry `10000 · t` rows further down. -/
theorem scale_block_read (A : S100000x1.Idx → EReal) (t : Fin cfg0.N) (y : S10000x1.Idx) (i : S100000x1.Idx)
    (h0 : (i 0).val = t.val * 10000 + (y 0).val) (h1 : (i 1).val = (y 1).val) :
    ((cfg0.win 3).blk t).view.read (Elt Ideal) A y = A i := by
  obtain ⟨-, -, -, -, -, -, e0, e1, -⟩ := block_index t
  have he : ((cfg0.win 3).blk t).view.emb y = i := by
    funext a; apply Fin.ext
    match a with
    | ⟨0, _⟩ => show win0_3.index t (0 : Fin 2) * 10000 + 1 * (y 0).val = (i 0).val; rw [e0, h0]; omega
    | ⟨1, _⟩ => show win0_3.index t (1 : Fin 2) * 1 + 1 * (y 1).val = (i 1).val; rw [e1, h1]; omega
  rw [View.read_apply, he]
  rfl

/-- Entry `y` of the output block at point `t` sits `10000 · t` rows further down in the output array. -/
theorem output_block_emb (t : Fin cfg0.N) (y : S10000x128.Idx) (i : S100000x128.Idx)
    (h0 : (i 0).val = t.val * 10000 + (y 0).val) (h1 : (i 1).val = (y 1).val) :
    ((cfg0.win 4).blk t).view.emb y = i := by
  obtain ⟨-, -, -, -, -, -, -, -, e0, e1⟩ := block_index t
  funext a; apply Fin.ext
  match a with
  | ⟨0, _⟩ => show win0_4.index t (0 : Fin 2) * 10000 + 1 * (y 0).val = (i 0).val; rw [e0, h0]; omega
  | ⟨1, _⟩ => show win0_4.index t (1 : Fin 2) * 128 + 1 * (y 1).val = (i 1).val; rw [e1, h1]; omega

/-- Reading an array through the output block at point `t`: entry `y` is the array's entry `10000 · t` rows down. -/
theorem output_block_read (A : S100000x128.Idx → EReal) (t : Fin cfg0.N) (y : S10000x128.Idx) (i : S100000x128.Idx)
    (h0 : (i 0).val = t.val * 10000 + (y 0).val) (h1 : (i 1).val = (y 1).val) :
    ((cfg0.win 4).blk t).view.read (Elt Ideal) A y = A i := by
  rw [View.read_apply, output_block_emb t y i h0 h1]
  rfl

/-- An entry of the output array is in point `t`'s block iff each coordinate is in the block's range on its axis. -/
theorem mem_output_block (t : Fin cfg0.N) (i : S100000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v14).slice (win0_4.rect t)).set ↔ _
  rw [View.set_slice_whole, Rect.mem_set_unit]
  exact Iff.rfl

end Cert.KernelIdeal.TiledStage

end
-- ==== Proof.TiledStage.lean ====
/-
  The tiled stage as one function of whole arrays.

  The stage covers the `100000` rows of its output in ten blocks of `10000` rows. At grid point `t` it stores
  into output rows `10000 · t … 10000 · t + 9999` the block `(x_blk · wᵀ + b) * s_blk` computed from rows
  `10000 · t …` of the features `x`, the whole weights `w`, the whole one-row bias `b` and entries `10000 · t …`
  of the scale column `s`. Entry `(p, q)` of that block depends on row `p` of the feature block, row `q` of the
  weights, entry `q` of the bias and entry `p` of the scale block only, and these are row `10000 · t + p` of
  `x`, row `q` of `w`, entry `q` of `b` and entry `10000 · t + p` of `s`. So what point `t` writes back is
  block `t` of the ONE array

      (n, j)  ↦  (∑ k, x (n, k) * w (j, k) + b (0, j)) * s (n, 0),

  and since row `r` of the output lies in the block of point `r / 10000`, the ten blocks cover the output and
  it ends holding that array.
-/
import proofs.«150654_j3977139716216_2_alg».proof.Proof.StagePayload
import proofs.«150654_j3977139716216_2_alg».proof.Proof.StageBlocks
import proofs.«150654_j3977139716216_2_alg».proof.Proof.LibGcnSpec

noncomputable section

open scoped BigOperators

namespace Cert.KernelIdeal.TiledStage

open Cert.KernelIdeal Cert.KernelIdeal.Gen Idealize.ShloMosaic Idealize.ShloMosaic.TcCoe Idealize.SL.Sem
open Idealize.ShloMosaic.ValueIdx
open Idealize.ShloMosaic.Pipeline (Dat)

/-- The body's accesses all start at the origin of their buffers. -/
theorem origin_zero : (![0, 0] : Fin 2 → Nat) = fun _ => 0 := funext fun a => by fin_cases a <;> rfl

/-- One entry of a stored block is one entry of the whole-array function: if row `p` of the feature block is row `n`
    of `X`, the weight and bias blocks are `W` and `B`, and entry `p` of the scale block is entry `n` of `S`, then entry
    `(p, q)` of the stored block is entry `(n, q)` of `(X · Wᵀ + B) * S`. -/
theorem block_entry (x0 : Vec Ideal S10000x128 .f32) (x1 : Vec Ideal S128x128 .f32) (x2 : Vec Ideal S1x128 .f32)
    (x3 : Vec Ideal S10000x1 .f32) (X : S100000x128.Idx → EReal) (W : S128x128.Idx → EReal) (B : S1x128.Idx → EReal)
    (S : S100000x1.Idx → EReal) (p : Fin 10000) (q : Fin 128) (n : Fin 100000)
    (hx : ∀ k : Fin 128, x0 (ix2 p k) = X (ix2 n k))
    (hw : ∀ k : Fin 128, x1 (ix2 q k) = W (ix2 q k))
    (hb : x2 (ix2 (0 : Fin 1) q) = B (ix2 (0 : Fin 1) q))
    (hs : x3 (ix2 p (0 : Fin 1)) = S (ix2 n (0 : Fin 1))) :
    k0_pay1 (F := Ideal) x0 x1 x2 x3 (ix2 p q)
      = Cert.Gcn.scaledLin (N := 100000) (D := 128) (K := 128) X W B S (ix2 n q) := by
  refine (payload_apply x0 x1 x2 x3 p q).trans ?_
  show _ = (∑ k : Fin 128, X (ix2 n k) * W (ix2 q k) + B (ix2 (0 : Fin 1) q)) * S (ix2 n (0 : Fin 1))
  have hsum : ∑ k : Fin 128, x0 (ix2 p k) * x1 (ix2 q k) = ∑ k : Fin 128, X (ix2 n k) * W (ix2 q k) :=
    Finset.sum_congr rfl fun k _ => by rw [hx k, hw k]
  rw [hsum, hb, hs]

/-- What point `t` writes back, for arbitrary contents `X`, `W`, `B`, `S` of the four input arrays: the body's result on
    the four blocks at `t`, cut to the output block, is block `t` of `(X · Wᵀ + B) * S`. -/
theorem written_block (X : S100000x128.Idx → EReal) (W : S128x128.Idx → EReal) (B : S1x128.Idx → EReal)
    (S : S100000x1.Idx → EReal) (t : Fin cfg0.N) :
    (cfg0.win 4).cut (grid0.coords t)
        (out0_4 (F := Ideal) (((cfg0.win 0).blk t).view.read (Elt Ideal) X) (((cfg0.win 1).blk t).view.read (Elt Ideal) W)
          (((cfg0.win 2).blk t).view.read (Elt Ideal) B) (((cfg0.win 3).blk t).view.read (Elt Ideal) S))
      = ((cfg0.win 4).blk t).view.read (Elt Ideal) (Cert.Gcn.scaledLin (N := 100000) (D := 128) (K := 128) X W B S) := by
  unfold out0_4
  rw [View.canon_unit_zero origin_zero]
  simp only [View.ld_unit_zero (S := S10000x128) origin_zero, View.ld_unit_zero (S := S128x128) origin_zero,
    View.ld_unit_zero (S := S1x128) origin_zero, View.ld_unit_zero (S := S10000x1) origin_zero]
  refine funext fun (j : S10000x128.Idx) => ?_
  obtain ⟨p, q, rfl⟩ : ∃ (p : Fin 10000) (q : Fin 128), j = ix2 p q := ⟨j 0, j 1, eq_ix2 j⟩
  -- the row of the whole arrays that row `p` of the blocks at `t` is
  have hlt : t.val * 10000 + p.val < 100000 := by
    have := point_lt t
    have := p.isLt
    omega
  refine Eq.trans ?_ (output_block_read (Cert.Gcn.scaledLin (N := 100000) (D := 128) (K := 128) X W B S) t (ix2 p q)
    (ix2 (⟨t.val * 10000 + p.val, hlt⟩ : Fin 100000) q) rfl rfl).symm
  show k0_pay1 (F := Ideal) (((cfg0.win 0).blk t).view.read (Elt Ideal) X) (((cfg0.win 1).blk t).view.read (Elt Ideal) W)
      (((cfg0.win 2).blk t).view.read (Elt Ideal) B) (((cfg0.win 3).blk t).view.read (Elt Ideal) S) (ix2 p q) = _
  exact block_entry _ _ _ _ X W B S p q ⟨t.val * 10000 + p.val, hlt⟩
    (fun k => feature_block_read X t (ix2 p k) (ix2 (⟨t.val * 10000 + p.val, hlt⟩ : Fin 100000) k) rfl rfl)
    (fun k => weight_block_read W t (ix2 q k))
    (bias_block_read B t (ix2 (0 : Fin 1) q))
    (scale_block_read S t (ix2 p (0 : Fin 1)) (ix2 (⟨t.val * 10000 + p.val, hlt⟩ : Fin 100000) (0 : Fin 1)) rfl rfl)

/-- Row `r` of the output lies in the block of point `r / 10000`: the ten blocks cover the output array. -/
theorem covered (i : S100000x128.Idx) :
    ∃ t : Fin cfg0.N, (cfg0.win 4).flush t = true ∧ i ∈ ((cfg0.win 4).blk t).view.set := by
  have hN : cfg0.N = 10 := N_0
  have hi0 : (i 0).val < 100000 := idx2_lt0 i
  have hi1 : (i 1).val < 128 := idx2_lt1 i
  obtain ⟨t, ht⟩ : ∃ t : Fin cfg0.N, t.val = (i 0).val / 10000 := ⟨⟨(i 0).val / 10000, by omega⟩, rfl⟩
  obtain ⟨-, -, -, -, -, -, -, -, e0, e1⟩ := block_index t
  refine ⟨t, flush0_4 t, ?_⟩
  rw [mem_output_block]
  intro a
  match a with
  | ⟨0, _⟩ =>
    show win0_4.index t (0 : Fin 2) * 10000 ≤ (i 0).val ∧ (i 0).val < win0_4.index t (0 : Fin 2) * 10000 + 10000
    rw [e0, ht]; omega
  | ⟨1, _⟩ =>
    show win0_4.index t (1 : Fin 2) * 128 ≤ (i 1).val ∧ (i 1).val < win0_4.index t (1 : Fin 2) * 128 + 128
    rw [e1]; omega

variable (m : (ℓ : Loc nD τ sig) → Buf (Elt Ideal) ℓ)

/-- What point `t` writes back to the output is block `t` of `(x · wᵀ + b) * s` of the four arrays as the stage finds
    them. -/
theorem flushed_eq (c : Dev nD) (t : Fin cfg0.N) :
    (dats m 0 c).flushed 4 t = ((cfg0.win 4).blk t).view.read (Elt Ideal)
      (Cert.Gcn.scaledLin (N := 100000) (D := 128) (K := 128) (V m c main_arg0) (V m c main_arg2) (V m c main_v12) (V m c main_v13)) := by
  show (cfg0.win 4).cut (grid0.coords t) ((dats m 0 c).after 4 t) = _
  rw [after0_4]
  unfold iblk
  exact written_block (V m c main_arg0) (V m c main_arg2) (V m c main_v12) (V m c main_v13) t

/-- THE STAGE'S VALUE: after the run the output array holds `(x · wᵀ + b) * s`, row `n` of the linear image scaled by
    entry `n` of the column, of the four arrays as the stage finds them. -/
theorem stage_value (c : Dev nD) :
    (dats m 0 c).arrAt 4 cfg0.N
      = Cert.Gcn.scaledLin (N := 100000) (D := 128) (K := 128) (V m c main_arg0) (V m c main_arg2) (V m c main_v12) (V m c main_v13) :=
  (dats m 0 c).arrAt_eq_of_cover 4
    (Cert.Gcn.scaledLin (N := 100000) (D := 128) (K := 128) (V m c main_arg0) (V m c main_arg2) (V m c main_v12) (V m c main_v13))
    (fun t _ => flushed_eq m c t) covered

end Cert.KernelIdeal.TiledStage

end
-- ==== Proof.KernelRun.lean ====
/-
  The tiled program's run, with its result named.

  Every weakly fair execution of the program terminates with the argument arrays unchanged and the returned array
  equal to `afterStage` of the tiled stage's array, the stage's array being `scaledLin` of the feature and weight
  arguments, the bias laid as a row and the per-node scale laid as a column — one term of the four arguments.
-/
import proofs.«150654_j3977139716216_2_alg».proof.Proof.KernelProgram
import proofs.«150654_j3977139716216_2_alg».proof.Proof.TiledStage

set_option maxRecDepth 16384

noncomputable section

namespace Cert.KernelIdeal.HostSide

open Cert.KernelIdeal Cert.KernelIdeal.Facts₀ Cert.KernelIdeal.Facts
open Idealize.ShloMosaic Idealize.ShloMosaic.TcCoe Idealize.SL.Sem

variable (m : (ℓ : Loc nD τ sig) → Buf (Elt Ideal) ℓ)

/-- The returned array as one term of the four argument arrays. -/
def resultArr (c : Dev nD) : FVec Ideal S100000x128 .f32 :=
  afterStage (m ((c.tc : Thread nD τ).loc main_arg1))
    (Cert.Gcn.scaledLin (N := 100000) (D := 128) (K := 128) (m ((c.tc : Thread nD τ).loc main_arg0))
      (m ((c.tc : Thread nD τ).loc main_arg2))
      (shapeCast S1x128 (m ((c.tc : Thread nD τ).loc main_arg3)) shapeCasts_S128_S1x128)
      (shapeCast S100000x1 (scaleArr (m ((c.tc : Thread nD τ).loc main_arg1))) shapeCasts_S100000_S100000x1))

/-- The stage's output array is `scaledLin` of the arguments. -/
theorem stage_array (c : Dev nD) : (Gen.dats m 0 c).arrAt 4 cfg0.N
    = Cert.Gcn.scaledLin (N := 100000) (D := 128) (K := 128) (m ((c.tc : Thread nD τ).loc main_arg0))
      (m ((c.tc : Thread nD τ).loc main_arg2))
      (shapeCast S1x128 (m ((c.tc : Thread nD τ).loc main_arg3)) shapeCasts_S128_S1x128)
      (shapeCast S100000x1 (scaleArr (m ((c.tc : Thread nD τ).loc main_arg1))) shapeCasts_S100000_S100000x1) := by
  rw [Cert.KernelIdeal.TiledStage.stage_value, Gen.V_main_arg0, Gen.V_main_arg2, stage_bias, stage_scale]

/-- The run: the result is `resultArr`, the arguments are unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v28) = resultArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v28 (Pipeline.mem_restRefs_of main_v28 (by decide) (by decide))).trans
        ((result_eq m c).trans (congrArg (afterStage (m ((c.tc : Thread nD τ).loc main_arg1))) (stage_array m c))),
      ((h c).1 0).trans (((Gen.dats m 0 c).arrAt_in 0 rfl _).trans ((Gen.A_eq m c 0).trans (Gen.V_main_arg0 m c))),
      ((h c).2 main_arg1 (Pipeline.mem_restRefs_of main_arg1 (by decide) (by decide))).trans (Gen.W_main_arg1 m (Gen.dats m) c),
      ((h c).1 1).trans (((Gen.dats m 0 c).arrAt_in 1 rfl _).trans ((Gen.A_eq m c 1).trans (Gen.V_main_arg2 m c))),
      ((h c).2 main_arg3 (Pipeline.mem_restRefs_of main_arg3 (by decide) (by decide))).trans (Gen.W_main_arg3 m (Gen.dats m) c)⟩)
    (Gen.run_main m ρ)

end Cert.KernelIdeal.HostSide

end
-- ==== Proof.LibLabelWord.lean ====
/-
  Labels as 32-bit words.

  A label is a column number `0 ≤ g < n` held in a 32-bit word. The precondition states the range by two SIGNED
  comparisons; the tiled program compares the word with the word of a column counter; the reference first
  "normalises" the word (adds the extent to a negative one) and then reads it signed as a position. For a word in
  range all of these agree with the number `g.toNat`:

  * `toNat_lt_of_signed`: `0 ≤ g` and `g < n` signed, with `n < 2³¹`, give `g.toNat < n`;
  * `toInt_eq_toNat`: such a word read signed is `g.toNat`;
  * `normalize_eq`: the normalisation leaves it alone;
  * `ofNat_eq_iff`: the word of a column number `k < 2³²` is `g` exactly when `k = g.toNat`.
-/
import Idealize.ShloMosaic.PureOps

namespace Cert.LabelWord

open Idealize.ShloMosaic

theorem ofBool_eq_one_iff (b : Bool) : BitVec.ofBool b = 1#1 ↔ b = true := by cases b <;> decide

theorem and_eq_one_iff : ∀ a b : BitVec 1, IntOp.andi a b = 1#1 ↔ a = 1#1 ∧ b = 1#1 := by decide

/-- A word below `2³¹` read signed is the number it holds. -/
theorem toInt_eq_toNat (g : BitVec 32) (h : g.toNat < 2 ^ 31) : g.toInt = g.toNat := by
  unfold BitVec.toInt
  rw [if_pos (by omega)]

/-- A word that is `≥ 0` and `< n` as a signed number, `n < 2³¹`, holds a number below `n`. -/
theorem toNat_lt_of_signed (g : BitVec 32) (n : ℕ) (hn : n < 2 ^ 31) (h0 : IntOp.cmpi .sge g 0#32 = 1#1)
    (h1 : IntOp.cmpi .slt g (BitVec.ofNat 32 n) = 1#1) : g.toNat < n := by
  unfold IntOp.cmpi at h0 h1
  rw [ofBool_eq_one_iff] at h0 h1
  have hn' : (BitVec.ofNat 32 n).toInt = n := by
    rw [toInt_eq_toNat _ (by rw [BitVec.toNat_ofNat]; omega), BitVec.toNat_ofNat]
    congr 1; omega
  have h0' : (0 : ℤ) ≤ g.toInt := by
    have := h0; simp only [BitVec.sle, decide_eq_true_eq] at this; simpa using this
  have h1' : g.toInt < n := by
    have := h1; simp only [BitVec.slt, decide_eq_true_eq] at this; rwa [hn'] at this
  have hlt := g.isLt
  unfold BitVec.toInt at h0' h1'
  split at h0' <;> omega

/-- A word below `2³¹` is not negative. -/
theorem slt_zero (g : BitVec 32) (h : g.toNat < 2 ^ 31) : IntOp.cmpi .slt g 0#32 = 0#1 := by
  unfold IntOp.cmpi
  have : g.slt 0#32 = false := by
    simp only [BitVec.slt, decide_eq_false_iff_not, not_lt]
    rw [toInt_eq_toNat g h]
    simp
  rw [this]; rfl

/-- Adding the extent to a negative index and leaving the others alone leaves a word below `2³¹` alone. -/
theorem normalize_eq (g n : BitVec 32) (h : g.toNat < 2 ^ 31) :
    Scalar.select (IntOp.cmpi .slt g 0#32) (IntOp.addi g n) g = g := by
  rw [slt_zero g h]
  exact if_neg (by decide)

/-- The word of a number below `2³²` is `g` exactly when the number is the one `g` holds. -/
theorem ofNat_eq_iff (k : ℕ) (hk : k < 2 ^ 32) (g : BitVec 32) : BitVec.ofNat 32 k = g ↔ k = g.toNat := by
  constructor
  · intro e
    rw [← e, BitVec.toNat_ofNat]
    omega
  · intro e
    apply BitVec.eq_of_toNat_eq
    rw [BitVec.toNat_ofNat, e]
    have := g.isLt
    omega

end Cert.LabelWord
-- ==== Proof.LibGcnEdgesWithLoops.lean ====
/-
  An edge list followed by one loop at every node.

  A graph on N nodes has E edges, edge e with target word row e and source word col e. The layer adds one
  loop at every node: the joined list has T = E + N entries, entry t < E being edge t and entry E + q being the
  loop at node q, whose target word and source word are both the 32-bit word of the number q (joinW).

  * For q < N ≤ 2³¹ the word of q read signed is q, it is not negative, so the normalisation leaves it alone
    and the clamp keeps it: the node it names is q (nodeOf_ofNat). An edge whose target word read signed is a
    node n also names n when read through the normalise-and-clamp (nodeOf_of_toInt).
  * A sum over the joined entries whose target word reads n is the sum over the edges arriving at n plus the
    one term of the loop at n (sum_filter_join): among the loops only q = n has target n.
  * Hence the number of joined entries with target n is deg n = card (tgt n) + 1 (sum_one_eq_deg), and the sum of the
    weighted source rows over those entries is the layer (sum_msg_eq_layer).
-/
import proofs.«150654_j3977139716216_2_alg».proof.Proof.LibGcnSpec
import proofs.«150654_j3977139716216_2_alg».proof.Proof.LibLabelWord

noncomputable section

open scoped BigOperators

namespace Cert.Gcn.EdgesWithLoops

open Idealize.ShloMosaic Cert.IndexOps Cert.Gcn

variable {N E T D : Nat}

/-- The joined word list: the E given words, then the words of the numbers 0, 1, 2, … -/
def joinW (w : Fin E → BitVec 32) (t : Fin T) : BitVec 32 :=
  if h : t.val < E then w ⟨t.val, h⟩ else BitVec.ofNat 32 (t.val - E)

/-- Below E the joined list is the given one. -/
theorem joinW_lt (w : Fin E → BitVec 32) (t : Fin T) (h : t.val < E) : joinW w t = w ⟨t.val, h⟩ := dif_pos h

/-- From E on the joined list holds the word of the position less E. -/
theorem joinW_ge (w : Fin E → BitVec 32) (t : Fin T) (h : ¬ t.val < E) : joinW w t = BitVec.ofNat 32 (t.val - E) :=
  dif_neg h

/-! ## The word of a node number -/

/-- The word of a number below 2³¹ holds that number. -/
theorem toNat_ofNat_lt (q : Nat) (hq : q < 2 ^ 31) : (BitVec.ofNat 32 q).toNat = q := by
  rw [BitVec.toNat_ofNat]
  omega

/-- The word of a number below 2³¹ read signed is that number. -/
theorem toInt_ofNat_lt (q : Nat) (hq : q < 2 ^ 31) : (BitVec.ofNat 32 q).toInt = (q : Int) := by
  rw [LabelWord.toInt_eq_toNat _ (by rw [toNat_ofNat_lt q hq]; exact hq), toNat_ofNat_lt q hq]

/-- A word whose signed value is the node n names n when a row is read through it: it is not negative, so the
    normalisation leaves it alone, and it is inside the range, so the clamp does too. -/
theorem nodeOf_of_toInt (hN : 0 < N) (z : BitVec 32) (n : Fin N) (h : z.toInt = (n.val : Int)) : nodeOf N hN z = n := by
  have h31 : z.toNat < 2 ^ 31 := by
    unfold BitVec.toInt at h
    have := z.isLt
    split at h <;> omega
  unfold nodeOf wrapWord
  rw [LabelWord.normalize_eq z _ h31]
  apply Fin.ext
  have hc := clampIdx_of_lt N hN z (by omega) (by have := n.isLt; omega)
  omega

/-- The word of a node number names that node. -/
theorem nodeOf_ofNat (hN : 0 < N) (hN31 : N ≤ 2 ^ 31) (n : Fin N) : nodeOf N hN (BitVec.ofNat 32 n.val) = n :=
  nodeOf_of_toInt hN _ n (toInt_ofNat_lt n.val (by have := n.isLt; omega))

/-! ## Sums over the joined entries arriving at a node -/

/-- A sum over the joined entries whose target word reads n: the edges arriving at n, and the loop at n. -/
theorem sum_filter_join {M : Type*} [AddCommMonoid M] (hT : T = E + N) (hN31 : N ≤ 2 ^ 31) (row : Fin E → BitVec 32)
    (n : Fin N) (g : Fin T → M) :
    ∑ t ∈ Finset.univ.filter (fun t : Fin T => (joinW row t).toInt = (n.val : Int)), g t
      = ∑ e ∈ tgt row n, g ⟨e.val, by have := e.isLt; omega⟩ + g ⟨E + n.val, by have := n.isLt; omega⟩ := by
  subst hT
  rw [Finset.sum_filter, Fin.sum_univ_add]
  congr 1
  · -- the first E entries are the edges
    unfold tgt
    rw [Finset.sum_filter]
    refine Finset.sum_congr rfl fun e _ => ?_
    rw [joinW_lt row (Fin.castAdd N e) e.isLt]
    rfl
  · -- among the loops only the one at n has target n
    have hloop : ∀ q : Fin N, (joinW row (Fin.natAdd E q)).toInt = (q.val : Int) := fun q => by
      rw [joinW_ge row (Fin.natAdd E q) (by show ¬ E + q.val < E; omega)]
      show (BitVec.ofNat 32 (E + q.val - E)).toInt = _
      rw [Nat.add_sub_cancel_left]
      exact toInt_ofNat_lt q.val (by have := q.isLt; omega)
    have hiff : ∀ q : Fin N, ((joinW row (Fin.natAdd E q)).toInt = (n.val : Int)) ↔ n = q := fun q => by
      rw [hloop q]
      constructor
      · intro h; exact Fin.ext (by omega)
      · intro h; rw [h]
    simp only [hiff]
    rw [Finset.sum_ite_eq Finset.univ n (fun q => g (Fin.natAdd E q)), if_pos (Finset.mem_univ n)]
    rfl

/-- The number of joined entries arriving at n is the degree: the edges arriving there, and the loop. -/
theorem sum_one_eq_deg (hT : T = E + N) (hN31 : N ≤ 2 ^ 31) (row : Fin E → BitVec 32) (n : Fin N) :
    ∑ _t ∈ Finset.univ.filter (fun t : Fin T => (joinW row t).toInt = (n.val : Int)), (1 : ℝ) = deg row n := by
  rw [sum_filter_join hT hN31 row n (fun _ => (1 : ℝ))]
  unfold deg
  rw [Finset.sum_const, nsmul_eq_mul, mul_one]

/-- What joined entry t brings to its target in column j: its source's row of h weighted by
    1 / √(deg(target) · deg(source)), both nodes read through the normalise-and-clamp. -/
def msg (hN : 0 < N) (row col : Fin E → BitVec 32) (h : Fin N → Fin D → ℝ) (t : Fin T) (j : Fin D) : ℝ :=
  (1 / Real.sqrt (deg row (nodeOf N hN (joinW row t)) * deg row (nodeOf N hN (joinW col t))))
    * h (nodeOf N hN (joinW col t)) j

/-- Adding up what the joined entries arriving at n bring is the layer at n. -/
theorem sum_msg_eq_layer (hT : T = E + N) (hN : 0 < N) (hN31 : N ≤ 2 ^ 31) (row col : Fin E → BitVec 32)
    (h : Fin N → Fin D → ℝ) (n : Fin N) (j : Fin D) :
    ∑ t ∈ Finset.univ.filter (fun t : Fin T => (joinW row t).toInt = (n.val : Int)), msg hN row col h t j
      = layer hN row col h n j := by
  rw [sum_filter_join hT hN31 row n (fun t => msg hN row col h t j)]
  unfold layer
  congr 1
  · -- an edge arriving at n: its target word names n
    refine Finset.sum_congr rfl fun e he => ?_
    have hE : e.val < E := e.isLt
    have hr : (row e).toInt = (n.val : Int) := (Finset.mem_filter.mp he).2
    have hT' : e.val < T := by omega
    unfold msg
    rw [joinW_lt row (⟨e.val, hT'⟩ : Fin T) hE, joinW_lt col (⟨e.val, hT'⟩ : Fin T) hE, nodeOf_of_toInt hN (row e) n hr]
  · -- the loop at n: both its words are the word of n
    have hE : ¬ E + n.val < E := by omega
    have hT' : E + n.val < T := by have := n.isLt; omega
    unfold msg
    rw [joinW_ge row (⟨E + n.val, hT'⟩ : Fin T) hE, joinW_ge col (⟨E + n.val, hT'⟩ : Fin T) hE]
    show (1 / Real.sqrt (deg row (nodeOf N hN (BitVec.ofNat 32 (E + n.val - E)))
        * deg row (nodeOf N hN (BitVec.ofNat 32 (E + n.val - E)))))
      * h (nodeOf N hN (BitVec.ofNat 32 (E + n.val - E))) j = _
    rw [Nat.add_sub_cancel_left, nodeOf_ofNat hN hN31 n]

end Cert.Gcn.EdgesWithLoops

end
-- ==== Proof.LibConcatRows.lean ====
/-
  Two matrices joined, read at an index.

  * Two matrices with the same R rows and with E and N columns laid side by side (joined along axis 1) into an
    R by T matrix, T = E + N: column t reads the first matrix below E and the second, at column t - E, from E on
    (concatenate_side_apply).
  * Two one-row matrices stacked (joined along axis 0) into a two-row matrix: row 0 is the first, row 1 the
    second (concatenate_stack_apply).
-/
import Idealize.ShloMosaic.Lib.Pipeline.Value
import Idealize.ShloMosaic.Lib.ValueIdx

namespace Cert.IndexOps

open Idealize.ShloMosaic Idealize.ShloMosaic.ValueIdx

variable {α : Type}

/-- An R by E and an R by N matrix laid side by side: entry (r, t) reads the first at (r, t) for t < E and the
    second at (r, t - E) from E on. -/
theorem concatenate_side_apply {R E N T : Nat} (hT : T = E + N)
    (a : (⟨2, ![R, E]⟩ : Shape).Idx → α) (b : (⟨2, ![R, N]⟩ : Shape).Idx → α)
    (h : Shape.Concatenates [⟨2, ![R, E]⟩, ⟨2, ![R, N]⟩] ⟨2, ![R, T]⟩ 1) (r : Fin R) (t : Fin T) :
    concatenate ⟨2, ![R, T]⟩ 1 [⟨⟨2, ![R, E]⟩, a⟩, ⟨⟨2, ![R, N]⟩, b⟩] h (ix2 r t)
      = if ht : t.val < E then a (ix2 r ⟨t.val, ht⟩) else b (ix2 r ⟨t.val - E, by have := t.isLt; omega⟩) := by
  by_cases ht : t.val < E
  · rw [dif_pos ht]
    exact concatenate_pair_apply_left 1 a b h (ix2 r t) rfl (ix2 r ⟨t.val, ht⟩) (fun c => by
      match c with
      | ⟨0, _⟩ => rfl
      | ⟨1, _⟩ => rfl)
  · rw [dif_neg ht]
    exact concatenate_pair_apply_right 1 a b h (ix2 r t) rfl rfl (ix2 r ⟨t.val - E, by have := t.isLt; omega⟩)
      (fun c hc => by
        match c with
        | ⟨0, _⟩ => rfl
        | ⟨1, _⟩ => exact absurd rfl hc)
      (by show t.val - E + E = t.val; omega)

/-- Two one-row matrices of N columns stacked: entry (r, q) reads the first at (0, q) when r = 0 and the second at
    (0, q) when r = 1. -/
theorem concatenate_stack_apply {N : Nat}
    (a b : (⟨2, ![1, N]⟩ : Shape).Idx → α)
    (h : Shape.Concatenates [⟨2, ![1, N]⟩, ⟨2, ![1, N]⟩] ⟨2, ![2, N]⟩ 0) (r : Fin 2) (q : Fin N) :
    concatenate ⟨2, ![2, N]⟩ 0 [⟨⟨2, ![1, N]⟩, a⟩, ⟨⟨2, ![1, N]⟩, b⟩] h (ix2 r q)
      = if r.val = 0 then a (ix2 0 q) else b (ix2 0 q) := by
  match r with
  | ⟨0, _⟩ =>
    rw [if_pos rfl]
    exact concatenate_pair_apply_left 0 a b h (ix2 0 q) rfl (ix2 0 q) (fun c => by
      match c with
      | ⟨0, _⟩ => rfl
      | ⟨1, _⟩ => rfl)
  | ⟨1, _⟩ =>
    rw [if_neg Nat.one_ne_zero]
    exact concatenate_pair_apply_right 0 a b h (ix2 1 q) rfl rfl (ix2 0 q)
      (fun c hc => by
        match c with
        | ⟨0, _⟩ => exact absurd rfl hc
        | ⟨1, _⟩ => rfl)
      rfl

end Cert.IndexOps
-- ==== Proof.RefIndexWords.lean ====
/-
  The reference's index words, read at a position.

  The reference joins the given edge words (two rows of 1600000) with two copies of 0, 1, …, 99999 along the edge
  axis and takes the two rows of the result apart: row 0 holds the target words, row 1 the source words, of the
  1700000 joined entries. Entry t of either row is the given word for t < 1600000 and the word of the number
  t - 1600000 from there on: the joined word list of EdgesWithLoops (joined_target_at, joined_source_at).
  The copies the reference reads rows through have 100000 added to a negative word: wrapWord of the joined word
  (the three normalised_*_at), and each is presented to a gather or a scatter as a one-column array, whose entry
  (t, 0) is the word at t (the *_col_at lemmas).
-/
import proofs.«150654_j3977139716216_2_alg».proof.Proof.Gen.ReferenceIdeal.Read
import proofs.«150654_j3977139716216_2_alg».proof.Proof.LibGcnEdgesWithLoops
import proofs.«150654_j3977139716216_2_alg».proof.Proof.LibConcatRows

noncomputable section

namespace Cert.ReferenceIdeal.RefLayer

open Cert.ReferenceIdeal Cert.ReferenceIdeal.Read Idealize.ShloMosaic Idealize.ShloMosaic.ValueIdx
open Cert.Gcn Cert.Gcn.EdgesWithLoops Cert.IndexOps

variable {F : FTy → Type} [FloatOps F]

/-- Both rows of the stacked counters hold, at column q, the word of q. -/
theorem counters_at (r : Fin 2) (q : Fin 100000) : val_main_v7 (F := F) (ix2 r q) = BitVec.ofNat 32 q.val := by
  have h5 : val_main_v5 (F := F) (ix2 0 q) = BitVec.ofNat 32 q.val := by
    rw [val_main_v5_apply, val_main_v4_apply]
  have h6 : val_main_v6 (F := F) (ix2 0 q) = BitVec.ofNat 32 q.val := by
    rw [val_main_v6_apply, val_main_v4_apply]
  unfold val_main_v7
  refine (concatenate_stack_apply (N := 100000) (val_main_v5 (F := F)) (val_main_v6 (F := F))
    Facts₀.concatenates_S1x100000_S1x100000_S2x100000_d0 r q).trans ?_
  split
  · exact h5
  · exact h6

/-- Row r of the joined words at position t: the given word below 1600000, the word of t - 1600000 from there on. -/
theorem joined_at (ei : IVec S2x1600000 32) (r : Fin 2) (t : Fin 1700000) :
    val_main_v8 (F := F) ei (ix2 r t) = joinW (fun e : Fin 1600000 => ei (ix2 r e)) t := by
  unfold val_main_v8
  refine (concatenate_side_apply (R := 2) (E := 1600000) (N := 100000) (T := 1700000) (by norm_num) ei
    (val_main_v7 (F := F)) Facts₀.concatenates_S2x1600000_S2x100000_S2x1700000_d1 r t).trans ?_
  unfold joinW
  split
  · rfl
  · exact counters_at r _

/-- The target words of the joined entries. -/
theorem joined_target_at (ei : IVec S2x1600000 32) (t : Fin 1700000) :
    val_main_v10 (F := F) ei (ix1 t) = joinW (fun e : Fin 1600000 => ei (ix2 0 e)) t := by
  have hi : idx_main_v9 (idx_main_v10 (ix1 t)) = ix2 0 t := by
    funext a
    match a with
    | ⟨0, _⟩ => rfl
    | ⟨1, _⟩ => exact Fin.ext (Nat.mod_eq_of_lt t.isLt)
  rw [val_main_v10_apply, val_main_v9_apply, hi, joined_at]

/-- The source words of the joined entries. -/
theorem joined_source_at (ei : IVec S2x1600000 32) (t : Fin 1700000) :
    val_main_v12 (F := F) ei (ix1 t) = joinW (fun e : Fin 1600000 => ei (ix2 1 e)) t := by
  have hi : idx_main_v11 (idx_main_v12 (ix1 t)) = ix2 1 t := by
    funext a
    match a with
    | ⟨0, _⟩ => rfl
    | ⟨1, _⟩ => exact Fin.ext (Nat.mod_eq_of_lt t.isLt)
  rw [val_main_v12_apply, val_main_v11_apply, hi, joined_at]

/-- A one-column array's entry (t, 0) sits at position t of the flat array it was made from. -/
theorem col_idx (t : Fin 1700000) : (fun a : Fin 1 => match a with | ⟨0, _⟩ => (⟨((ix2 t (0 : Fin 1) : S1700000x1.Idx) 0).val,
    ((ix2 t (0 : Fin 1) : S1700000x1.Idx) 0).isLt⟩ : Fin 1700000)) = (ix1 t : S1700000.Idx) := by
  funext a
  match a with
  | ⟨0, _⟩ => rfl

/-- The target words as the one-column array the degree scatter takes. -/
theorem target_col_at (ei : IVec S2x1600000 32) (t : Fin 1700000) :
    val_main_v15 (F := F) ei (ix2 t 0) = joinW (fun e : Fin 1600000 => ei (ix2 0 e)) t := by
  rw [val_main_v15_apply, show idx_main_v15 (ix2 t 0) = ix1 t from col_idx t, joined_target_at]

/-- The target words as the one-column array the final scatter takes. -/
theorem target_col_at' (ei : IVec S2x1600000 32) (t : Fin 1700000) :
    val_main_v46 (F := F) ei (ix2 t 0) = joinW (fun e : Fin 1600000 => ei (ix2 0 e)) t := by
  rw [val_main_v46_apply, show idx_main_v46 (ix2 t 0) = ix1 t from col_idx t, joined_target_at]

/-- The normalised target words, as the one-column array the first degree gather takes. -/
theorem normalised_target_col_at (ei : IVec S2x1600000 32) (t : Fin 1700000) :
    val_main_v22 (F := F) ei (ix2 t 0)
      = wrapWord (BitVec.ofNat 32 100000) (joinW (fun e : Fin 1600000 => ei (ix2 0 e)) t) := by
  rw [val_main_v22_apply, show idx_main_v22 (ix2 t 0) = ix1 t from col_idx t, val_main_v21_apply, val_main_v18_apply,
    val_main_v20_apply, val_main_v17_apply, val_main_v19_apply, val_main_c_apply, val_main_c_1_apply, joined_target_at]
  rfl

/-- The normalised source words, as the one-column array the second degree gather takes. -/
theorem normalised_source_col_at (ei : IVec S2x1600000 32) (t : Fin 1700000) :
    val_main_v29 (F := F) ei (ix2 t 0)
      = wrapWord (BitVec.ofNat 32 100000) (joinW (fun e : Fin 1600000 => ei (ix2 1 e)) t) := by
  rw [val_main_v29_apply, show idx_main_v29 (ix2 t 0) = ix1 t from col_idx t, val_main_v28_apply, val_main_v25_apply,
    val_main_v27_apply, val_main_v24_apply, val_main_v26_apply, val_main_c_2_apply, val_main_c_3_apply, joined_source_at]
  rfl

/-- The normalised source words, as the one-column array the row gather takes. -/
theorem normalised_source_col_at' (ei : IVec S2x1600000 32) (t : Fin 1700000) :
    val_main_v41 (F := F) ei (ix2 t 0)
      = wrapWord (BitVec.ofNat 32 100000) (joinW (fun e : Fin 1600000 => ei (ix2 1 e)) t) := by
  rw [val_main_v41_apply, show idx_main_v41 (ix2 t 0) = ix1 t from col_idx t, val_main_v40_apply, val_main_v37_apply,
    val_main_v39_apply, val_main_v36_apply, val_main_v38_apply, val_main_c_5_apply, val_main_c_6_apply, joined_source_at]
  rfl

end Cert.ReferenceIdeal.RefLayer

end
-- ==== Proof.RefDegree.lean ====
/-
  The reference's degrees.

  The reference scatters a one for every joined entry onto its raw target word, into an array of zeros: position a
  receives one for each edge arriving at a and one for the loop at a, so it holds deg a = card (tgt a) + 1, a real
  (degree_at). It then reads that array through the normalised target words and through the normalised source words
  of the joined entries: entry t reads the degree of the node the word names (target_degree_at, source_degree_at).
-/
import proofs.«150654_j3977139716216_2_alg».proof.Proof.RefIndexWords
import proofs.«150654_j3977139716216_2_alg».proof.Proof.LibScatterBridge
import proofs.«150654_j3977139716216_2_alg».proof.Proof.LibRealSum

noncomputable section

open scoped BigOperators

namespace Cert.ReferenceIdeal.RefLayer

open Cert.ReferenceIdeal Cert.ReferenceIdeal.Read Idealize.ShloMosaic Idealize.ShloMosaic.ValueIdx
open Cert.Gcn Cert.Gcn.EdgesWithLoops Cert.IndexOps Cert.Lib.RealSum

/-- The array of ones reads 1. -/
theorem ones_at (t : Fin 1700000) : val_main_v13 (F := Ideal) (ix1 t) = ((1 : ℝ) : EReal) := by
  rw [val_main_v13_apply, val_main_cst_apply, Ideal.ofBits_def, ofBits_one]

/-- The array the ones are added into reads 0. -/
theorem degree_zeros_at (a : Fin 100000) : val_main_v14 (F := Ideal) (ix1 a) = 0 := by
  rw [val_main_v14_apply, val_main_cst_0_apply, Ideal.ofBits_def, Ideal.ofBits_zero_f32]

/-- The scattered ones at node a: the degree of a. -/
theorem degree_at (ei : IVec S2x1600000 32) (a : Fin 100000) :
    val_main_v16 (F := Ideal) ei (ix1 a) = ((deg (fun e : Fin 1600000 => ei (ix2 0 e)) a : ℝ) : EReal) := by
  -- the entries whose raw target word reads a are the joined entries arriving at a
  have hf : (Finset.univ.filter fun t : Fin 1700000 => (val_main_v15 (F := Ideal) ei (ix2 t 0)).toInt = (a.val : Int))
      = Finset.univ.filter fun t : Fin 1700000 =>
          (joinW (fun e : Fin 1600000 => ei (ix2 0 e)) t).toInt = (a.val : Int) :=
    Finset.filter_congr fun t _ => by rw [target_col_at]
  unfold val_main_v16
  rw [hostScatterAdd_flat (N := 100000) (E := 1700000) scatter_S100000_S1700000x1_S1700000_n_0_0_1 rfl rfl rfl rfl,
    degree_zeros_at, zero_add, hf, Finset.sum_congr rfl fun t _ => ones_at t, ← coe_sum,
    sum_one_eq_deg (by norm_num) (by norm_num)]

/-- The degree read through the normalised target word of joined entry t. -/
theorem target_degree_at (ei : IVec S2x1600000 32) (t : Fin 1700000) :
    val_main_v23 (F := Ideal) ei (ix1 t)
      = ((deg (fun e : Fin 1600000 => ei (ix2 0 e))
          (nodeOf 100000 (by norm_num) (joinW (fun e : Fin 1600000 => ei (ix2 0 e)) t)) : ℝ) : EReal) := by
  unfold val_main_v23
  rw [gather_flat_apply (N := 100000) (E := 1700000) (by norm_num) gather_S100000_S1700000x1_S1700000_n_0_n_n_0_1_1
    rfl rfl rfl rfl rfl rfl rfl, normalised_target_col_at, degree_at]
  rfl

/-- The degree read through the normalised source word of joined entry t. -/
theorem source_degree_at (ei : IVec S2x1600000 32) (t : Fin 1700000) :
    val_main_v30 (F := Ideal) ei (ix1 t)
      = ((deg (fun e : Fin 1600000 => ei (ix2 0 e))
          (nodeOf 100000 (by norm_num) (joinW (fun e : Fin 1600000 => ei (ix2 1 e)) t)) : ℝ) : EReal) := by
  unfold val_main_v30
  rw [gather_flat_apply (N := 100000) (E := 1700000) (by norm_num) gather_S100000_S1700000x1_S1700000_n_0_n_n_0_1_1
    rfl rfl rfl rfl rfl rfl rfl, normalised_source_col_at, degree_at]
  rfl

end Cert.ReferenceIdeal.RefLayer

end
-- ==== Proof.RefCoefficient.lean ====
/-
  The reference's edge coefficients.

  For joined entry t the reference multiplies the two degrees it read (of the target's node and of the source's node),
  takes the square root and divides 1 by it. Both degrees are reals ≥ 1, so the product is a positive real, its square
  root a positive real, and the quotient the real 1 / √(deg · deg) (one_div_sqrt_mul_coe, coefficient_at). The
  coefficient is then spread along the 128 columns: entry (t, j) of that array is the coefficient of t
  (coefficient_spread_at).
-/
import proofs.«150654_j3977139716216_2_alg».proof.Proof.RefDegree

noncomputable section

namespace Cert.ReferenceIdeal.RefLayer

open Cert.ReferenceIdeal Cert.ReferenceIdeal.Read Idealize.ShloMosaic Idealize.ShloMosaic.ValueIdx
open Cert.Gcn Cert.Gcn.EdgesWithLoops Cert.IndexOps

/-- For positive reals a and b, 1 divided by the square root of a · b, computed among the extended reals, is the real
    1 / √(a · b): the product is positive, so the root is the real root and is not zero. -/
theorem one_div_sqrt_mul_coe {a b : ℝ} (ha : 0 < a) (hb : 0 < b) :
    Ideal.div ((1 : ℝ) : EReal) (Ideal.sqrt ((a : EReal) * (b : EReal))) = ((1 / Real.sqrt (a * b) : ℝ) : EReal) := by
  have hab : 0 < a * b := mul_pos ha hb
  rw [← EReal.coe_mul, Ideal.sqrt_coe, if_neg (not_lt.mpr hab.le), Ideal.div_coe (Real.sqrt_pos.mpr hab).ne',
    ← EReal.coe_mul, one_mul]

/-- The coefficient of joined entry t. -/
theorem coefficient_at (ei : IVec S2x1600000 32) (t : Fin 1700000) :
    val_main_v34 (F := Ideal) ei (ix1 t)
      = ((1 / Real.sqrt (deg (fun e : Fin 1600000 => ei (ix2 0 e))
              (nodeOf 100000 (by norm_num) (joinW (fun e : Fin 1600000 => ei (ix2 0 e)) t))
            * deg (fun e : Fin 1600000 => ei (ix2 0 e))
              (nodeOf 100000 (by norm_num) (joinW (fun e : Fin 1600000 => ei (ix2 1 e)) t))) : ℝ) : EReal) := by
  rw [val_main_v34_apply, val_main_v33_apply, val_main_cst_4_apply, val_main_v32_apply, val_main_v31_apply,
    target_degree_at, source_degree_at, Ideal.hostDivf_def, Ideal.hostUnary_sqrt_def, Ideal.mulf_def, Ideal.ofBits_def,
    ofBits_one]
  exact one_div_sqrt_mul_coe (deg_pos _ _) (deg_pos _ _)

/-- Entry (t, j) of the coefficients spread along the columns is the coefficient of t. -/
theorem coefficient_spread_at (ei : IVec S2x1600000 32) (t : Fin 1700000) (j : Fin 128) :
    val_main_v43 (F := Ideal) ei (ix2 t j) = val_main_v34 (F := Ideal) ei (ix1 t) := by
  have h43 : idx_main_v43 (ix2 t j) = ix2 t 0 := by
    funext a
    match a with
    | ⟨0, _⟩ => rfl
    | ⟨1, _⟩ => rfl
  rw [val_main_v43_apply, h43, val_main_v35_apply, show idx_main_v35 (ix2 t 0) = ix1 t from col_idx t]

end Cert.ReferenceIdeal.RefLayer

end
-- ==== Proof.RefLinear.lean ====
/-
  The reference's linear image of the node features.

  h = x · wᵀ + b: the product contracts the second axis of x against the second axis of w, the bias is spread along the
  rows. With real inputs entry (m, j) is the real ∑ k, x (m, k) · w (j, k) + b j, the specification's lin: a finite sum
  of products of reals is the real sum, and a sum of two reals the real sum (linear_at).
-/
import proofs.«150654_j3977139716216_2_alg».proof.Proof.Gen.ReferenceIdeal.Read
import proofs.«150654_j3977139716216_2_alg».proof.Proof.LibGcnSpec
import proofs.«150654_j3977139716216_2_alg».proof.Proof.LibRealSum

noncomputable section

open scoped BigOperators

namespace Cert.ReferenceIdeal.RefLayer

open Cert.ReferenceIdeal Cert.ReferenceIdeal.Read Idealize.ShloMosaic Idealize.ShloMosaic.ValueIdx
open Cert.Gcn Cert.Lib.RealSum

/-- Entry (m, j) of the linear image of real inputs is the real lin (m, j). -/
theorem linear_at (xr : S100000x128.Idx → ℝ) (wr : S128x128.Idx → ℝ) (br : S128.Idx → ℝ) (m : Fin 100000) (j : Fin 128) :
    val_main_v3 (F := Ideal) (fun i => ((xr i : ℝ) : EReal)) (fun i => ((wr i : ℝ) : EReal))
        (fun i => ((br i : ℝ) : EReal)) (ix2 m j)
      = ((lin xr wr br m j : ℝ) : EReal) := by
  have hl : ∀ k : Fin 128, lidx_main_v0 (ix2 m j) k = ix2 m k := fun k => by
    funext a
    match a with
    | ⟨0, _⟩ => rfl
    | ⟨1, _⟩ => rfl
  have hr : ∀ k : Fin 128, ridx_main_v0 (ix2 m j) k = ix2 j k := fun k => by
    funext a
    match a with
    | ⟨0, _⟩ => rfl
    | ⟨1, _⟩ => rfl
  have hb : idx_main_v1 (idx_main_v2 (ix2 m j)) = ix1 j := by
    funext a
    match a with
    | ⟨0, _⟩ => rfl
  rw [val_main_v3_apply, val_main_v0_apply, val_main_v2_apply, val_main_v1_apply, hb, Ideal.addf_def]
  unfold lin
  rw [EReal.coe_add, coe_sum]
  congr 1
  refine Finset.sum_congr rfl fun k _ => ?_
  rw [hl k, hr k, EReal.coe_mul]

end Cert.ReferenceIdeal.RefLayer

end
-- ==== Proof.LibRowScatterBridge.lean ====
/-
  The host's accumulating scatter of rows read at one index at the exact instance, stated over variable extents and
  operands and over any dimension record equal to the row record, so that a program's row scatter at its own literal
  extents is an instance of it.
-/
import proofs.«150654_j3977139716216_2_alg».proof.Proof.LibRowOps

noncomputable section

open scoped BigOperators

namespace Cert.Lib.RowOps

open Idealize.ShloMosaic Idealize.ShloMosaic.ValueIdx

/-- The host's accumulating scatter of the rows of an E by F array onto the rows of an N by F array, at (n, f): the
    element there plus the sum, over the rows e whose index read signed is n, of the update at (e, f). -/
theorem hostScatterAdd_rows {N E F w : Nat}
    (d : ScatterDims ⟨2, ![N, F]⟩ ⟨2, ![E, 1]⟩ ⟨2, ![E, F]⟩)
    (wf : ScatterDims.WF ⟨2, ![N, F]⟩ ⟨2, ![E, 1]⟩ ⟨2, ![E, F]⟩ [1] [0] [0] 1) (hd : d = rowScatter N E F wf)
    (x : FVec Ideal ⟨2, ![N, F]⟩ .f32) (idx : IVec ⟨2, ![E, 1]⟩ w) (upd : FVec Ideal ⟨2, ![E, F]⟩ .f32)
    (n : Fin N) (f : Fin F) :
    Host.scatterAdd (F := Ideal) d x idx upd (ix2 n f)
      = x (ix2 n f) + ∑ e ∈ Finset.univ.filter (fun e : Fin E => (idx (ix2 e 0)).toInt = (n.val : Int)), upd (ix2 e f) := by
  subst hd
  simp only [Host.scatterAdd, Ideal.hostScatterAdd_def]
  exact scatterAdd_rows_apply wf x idx upd n f

end Cert.Lib.RowOps

end
-- ==== Proof.RefLayer.lean ====
/-
  The reference program at an index, as the specification's real number.

  For joined entry t the reference gathers the row of the linear image h named by the normalised source word
  (gathered_row_at), multiplies it by the entry's coefficient — so entry (t, j) of the messages is the real
  msg t j = 1 / √(deg(target) · deg(source)) · h (source, j) (message_at) — and adds the messages, row by row, onto the
  rows named by the RAW target words, into an array of zeros. Row n receives the joined entries whose target word
  reads n: the edges arriving at n, and the loop at n. The sum of real messages over them is the real sum, which is
  the layer (EdgesWithLoops.sum_msg_eq_layer): ref_value.
-/
import proofs.«150654_j3977139716216_2_alg».proof.Proof.RefCoefficient
import proofs.«150654_j3977139716216_2_alg».proof.Proof.RefLinear
import proofs.«150654_j3977139716216_2_alg».proof.Proof.LibRowScatterBridge

noncomputable section

open scoped BigOperators

namespace Cert.ReferenceIdeal.RefLayer

open Cert.ReferenceIdeal Cert.ReferenceIdeal.Read Idealize.ShloMosaic Idealize.ShloMosaic.ValueIdx
open Cert.Gcn Cert.Gcn.EdgesWithLoops Cert.IndexOps Cert.Lib.RealSum Cert.Lib.RowOps

/-- Row t of the gathered rows is the row of the linear image at the node the source word of t names. -/
theorem gathered_row_at (xr : S100000x128.Idx → ℝ) (wr : S128x128.Idx → ℝ) (br : S128.Idx → ℝ) (ei : IVec S2x1600000 32)
    (t : Fin 1700000) (j : Fin 128) :
    val_main_v42 (F := Ideal) (fun i => ((xr i : ℝ) : EReal)) ei (fun i => ((wr i : ℝ) : EReal))
        (fun i => ((br i : ℝ) : EReal)) (ix2 t j)
      = ((lin xr wr br (nodeOf 100000 (by norm_num) (joinW (fun e : Fin 1600000 => ei (ix2 1 e)) t)) j : ℝ) : EReal) := by
  unfold val_main_v42
  rw [gather_rows_apply (N := 100000) (K := 128) (E := 1700000) (by norm_num)
    gather_S100000x128_S1700000x1_S1700000x128_1_0_n_n_0_1_1128 rfl rfl rfl rfl rfl rfl rfl,
    normalised_source_col_at', linear_at]
  rfl

/-- Entry (t, j) of the messages is the real message of joined entry t in column j. -/
theorem message_at (xr : S100000x128.Idx → ℝ) (wr : S128x128.Idx → ℝ) (br : S128.Idx → ℝ) (ei : IVec S2x1600000 32)
    (t : Fin 1700000) (j : Fin 128) :
    val_main_v44 (F := Ideal) (fun i => ((xr i : ℝ) : EReal)) ei (fun i => ((wr i : ℝ) : EReal))
        (fun i => ((br i : ℝ) : EReal)) (ix2 t j)
      = ((msg (N := 100000) (by norm_num) (fun e : Fin 1600000 => ei (ix2 0 e)) (fun e : Fin 1600000 => ei (ix2 1 e))
          (lin xr wr br) t j : ℝ) : EReal) := by
  rw [val_main_v44_apply, coefficient_spread_at, coefficient_at, gathered_row_at, Ideal.mulf_def, ← EReal.coe_mul]
  rfl

/-- The array the messages are added into reads 0. -/
theorem layer_zeros_at (n : Fin 100000) (j : Fin 128) : val_main_v45 (F := Ideal) (ix2 n j) = 0 := by
  rw [val_main_v45_apply, val_main_cst_7_apply, Ideal.ofBits_def, Ideal.ofBits_zero_f32]

/-- THE REFERENCE AT AN INDEX: with real inputs, entry (n, j) of the reference's result is the real layer (n, j) of the
    specification, over the given target words (row 0 of the edge words), source words (row 1) and the linear image. -/
theorem ref_value (xr : S100000x128.Idx → ℝ) (wr : S128x128.Idx → ℝ) (br : S128.Idx → ℝ) (ei : IVec S2x1600000 32)
    (n : Fin 100000) (j : Fin 128) :
    Cert.ReferenceIdeal.Read.val_main_v47 (F := Ideal) (fun i => ((xr i : ℝ) : EReal)) ei
        (fun i => ((wr i : ℝ) : EReal)) (fun i => ((br i : ℝ) : EReal)) (ix2 n j)
      = ((Cert.Gcn.layer (N := 100000) (E := 1600000) (D := 128) (by norm_num) (fun e => ei (ix2 0 e))
          (fun e => ei (ix2 1 e)) (Cert.Gcn.lin xr wr br) n j : ℝ) : EReal) := by
  -- the rows whose raw target word reads n are the joined entries arriving at n
  have hf : (Finset.univ.filter fun t : Fin 1700000 => (val_main_v46 (F := Ideal) ei (ix2 t 0)).toInt = (n.val : Int))
      = Finset.univ.filter fun t : Fin 1700000 =>
          (joinW (fun e : Fin 1600000 => ei (ix2 0 e)) t).toInt = (n.val : Int) :=
    Finset.filter_congr fun t _ => by rw [target_col_at']
  unfold val_main_v47
  rw [hostScatterAdd_rows (N := 100000) (E := 1700000) (F := 128) scatter_S100000x128_S1700000x1_S1700000x128_1_0_0_1
      Facts₀.scatter_S100000x128_S1700000x1_S1700000x128_1_0_0_1_wf rfl,
    layer_zeros_at, zero_add, hf, Finset.sum_congr rfl fun t _ => message_at xr wr br ei t j, ← coe_sum,
    sum_msg_eq_layer (by norm_num) (by norm_num) (by norm_num)]

end Cert.ReferenceIdeal.RefLayer

end
-- ==== Proof.lean ====
/-
  A graph-convolution layer computed two ways gives the same array.

  Both programs take node features `x` (100000 × 128), 1600000 edges as two rows of 32-bit words (targets, sources),
  a weight matrix `W` (128 × 128) and a bias `b`, and return, for every node `n` and feature `j`,

      Σ_{edges e arriving at n}  h (src e, j) / √(deg n · deg (src e))   +   h (n, j) / √(deg n · deg n),

  where `h = x · Wᵀ + b`, `deg n` is the number of edges arriving at `n` plus one (a loop at every node), a target word
  that is no node is dropped and a source word is normalised and clamped to a node (`Cert.Gcn.layer`, LibGcnSpec.lean).

  * The reference appends the 100000 loops to the edge list, counts degrees by accumulating ones, forms the
    coefficient `1 / √(deg · deg)` per edge, and accumulates coefficient × gathered row of `h` (RefLayer.lean:
    `ref_value` reads its result at `(n, j)` as the real number above).
  * The tiled program computes `s = deg^(−1/2)`, a tiled stage `h2 = h ⊙ s` (row `n` scaled by `s n`; TiledStage.lean reads
    the stage's ten row blocks back as one array), and then `s ⊙ (accumulate(gather(h2)) + h2)` over the given edges
    only (KernelLayer.lean: `afterStage_apply` reads this at `(n, j)` as `Cert.Gcn.layerScaled`).

  The two agree because `a^(−1/2) · b^(−1/2) = 1 / √(a · b)` for positive reals and a product distributes over a finite
  sum of real numbers (`Cert.Gcn.layerScaled_eq_layer`). The precondition — every float input finite — is what makes
  every entry a real number (FiniteInputs.lean); on the extended reals the distributive law fails at the infinities.

  The three frame claims are the generated frames (the reference's is its generated run with the result dropped), and
  the idealisation rewrote nothing, so `preserves` is trivial.
-/
import proofs.«150654_j3977139716216_2_alg».proof.Defs
import proofs.«150654_j3977139716216_2_alg».proof.Proof.Gen.Kernel
import proofs.«150654_j3977139716216_2_alg».proof.Proof.Gen.Kernel.Skeleton
import proofs.«150654_j3977139716216_2_alg».proof.Proof.Gen.Kernel.Launch
import proofs.«150654_j3977139716216_2_alg».proof.Proof.Gen.Kernel.Points
import proofs.«150654_j3977139716216_2_alg».proof.Proof.Gen.Kernel.Frame
import proofs.«150654_j3977139716216_2_alg».proof.Proof.Gen.KernelIdeal
import proofs.«150654_j3977139716216_2_alg».proof.Proof.Gen.KernelIdeal.Skeleton
import proofs.«150654_j3977139716216_2_alg».proof.Proof.Gen.KernelIdeal.Launch
import proofs.«150654_j3977139716216_2_alg».proof.Proof.Gen.KernelIdeal.Points
import proofs.«150654_j3977139716216_2_alg».proof.Proof.Gen.KernelIdeal.Frame
import proofs.«150654_j3977139716216_2_alg».proof.Proof.Gen.ReferenceIdeal
import proofs.«150654_j3977139716216_2_alg».proof.Proof.Gen.Pre_finite_inputs
import proofs.«150654_j3977139716216_2_alg».proof.Proof.Gen.ReferenceIdeal.Run
import proofs.«150654_j3977139716216_2_alg».proof.Proof.Gen.ReferenceIdeal.Read
import proofs.«150654_j3977139716216_2_alg».proof.Proof.FiniteInputs
import proofs.«150654_j3977139716216_2_alg».proof.Proof.KernelLayer
import proofs.«150654_j3977139716216_2_alg».proof.Proof.KernelRun
import proofs.«150654_j3977139716216_2_alg».proof.Proof.RefLayer
import Idealize.ShloMosaic.Adequacy
import Idealize.ShloMosaic.Init

set_option maxRecDepth 16384

noncomputable section

namespace Cert.Proof

open Idealize.ShloMosaic Idealize.ShloMosaic.ValueIdx Idealize.SL.Sem Cert.Gcn

/-- The common result array: the layer of the specification at every `(n, j)`, over the edge words `ei` and the real
    inputs `xr`, `wr`, `br`. -/
def layerArr (ei : IVec Cert.KernelIdeal.S2x1600000 32) (xr : Cert.KernelIdeal.S100000x128.Idx → ℝ)
    (wr : Cert.KernelIdeal.S128x128.Idx → ℝ) (br : Cert.KernelIdeal.S128.Idx → ℝ) : Cert.KernelIdeal.S100000x128.Idx → EReal :=
  fun y => ((layer (N := 100000) (E := 1600000) (D := 128) (by norm_num) (fun e => ei (ix2 (0 : Fin 2) e))
    (fun e => ei (ix2 (1 : Fin 2) e)) (lin xr wr br) (y 0) (y 1) : ℝ) : EReal)

theorem frame_kernel : Cert.frame_Kernel := fun m ρ _ => Cert.Kernel.Gen.frame m ρ

theorem frame_kernelIdeal : Cert.frame_KernelIdeal := fun m ρ _ => Cert.KernelIdeal.Gen.frame m ρ

/-- The reference's frame: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealised programs end at `layerArr` of the (real) inputs. -/
theorem algebraic : Cert.algebraic_KernelIdeal_ReferenceIdeal := by
  intro m ρ m' ρ' hpre hagree
  have hreal := fun c => Cert.FiniteInputs.inputs_real _ _ _ _ (hpre c)
  choose xr hx using fun c => (hreal c).1
  choose wr hw using fun c => (hreal c).2.1
  choose br hb using fun c => (hreal c).2.2
  have ex : ∀ c : Dev Cert.KernelIdeal.nD,
      m ((c.tc : Thread Cert.KernelIdeal.nD Cert.KernelIdeal.τ).loc Cert.KernelIdeal.main_arg0)
        = fun i => ((xr c i : ℝ) : EReal) := fun c => funext (hx c)
  have ew : ∀ c : Dev Cert.KernelIdeal.nD,
      m ((c.tc : Thread Cert.KernelIdeal.nD Cert.KernelIdeal.τ).loc Cert.KernelIdeal.main_arg2)
        = fun i => ((wr c i : ℝ) : EReal) := fun c => funext (hw c)
  have eb : ∀ c : Dev Cert.KernelIdeal.nD,
      m ((c.tc : Thread Cert.KernelIdeal.nD Cert.KernelIdeal.τ).loc Cert.KernelIdeal.main_arg3)
        = fun i => ((br c i : ℝ) : EReal) := fun c => funext (hb c)
  refine ⟨fun c => layerArr (m ((c.tc : Thread Cert.KernelIdeal.nD Cert.KernelIdeal.τ).loc Cert.KernelIdeal.main_arg1))
    (xr c) (wr c) (br c), ?_, ?_⟩
  · -- the tiled program: its result term on real inputs is the pre-scaled layer, which is the layer
    refine (θ_run Cert.KernelIdeal.defs _ _).mono (fun _ h c => ⟨(h c).1.trans ?_, (h c).2⟩)
      (Cert.KernelIdeal.HostSide.run m ρ)
    unfold Cert.KernelIdeal.HostSide.resultArr
    rw [ex c, ew c, eb c]
    funext y
    obtain ⟨n, j, rfl⟩ : ∃ (n : Fin 100000) (j : Fin 128), y = ix2 n j := ⟨y 0, y 1, eq_ix2 y⟩
    exact (Cert.KernelIdeal.HostSide.afterStage_apply _ (xr c) (wr c) (br c) n j).trans
      (congrArg (fun r : ℝ => (r : EReal)) (layerScaled_eq_layer _ _ _ _ n j))
  · -- the reference: its run's term, read at an index on real inputs, is the layer
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v47_eq, (hagree c).1, (hagree c).2.1, (hagree c).2.2.1, (hagree c).2.2.2,
      ex c, ew c, eb c]
    funext y
    obtain ⟨n, j, rfl⟩ : ∃ (n : Fin 100000) (j : Fin 128), y = ix2 n j := ⟨y 0, y 1, eq_ix2 y⟩
    exact Cert.ReferenceIdeal.RefLayer.ref_value (xr c) (wr c) (br c) _ n j

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
